-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024 : Shape := ⟨3, ![16, 1, 1024]⟩
abbrev S16x4096x1024 : Shape := ⟨3, ![16, 4096, 1024]⟩
abbrev S1024x1024 : Shape := ⟨2, ![1024, 1024]⟩
abbrev S1024 : Shape := ⟨1, ![1024]⟩
abbrev S_ : Shape := ⟨0, ![]⟩

class Facts : Prop where
  bcast_S_S16x1x1024 : S_.BroadcastsInDim S16x1x1024 (![] : Fin 0 → Fin S16x1x1024.rank)
  reducesTo_S16x1x1024_S_d0_1_2 : S16x1x1024.ReducesTo [0, 1, 2] S_
  h_S_ : 0 < S_.numel
  bcast_S_S16x4096x1024 : S_.BroadcastsInDim S16x4096x1024 (![] : Fin 0 → Fin S16x4096x1024.rank)
  reducesTo_S16x4096x1024_S_d0_1_2 : S16x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S16x1x1024 .f32) (main_arg1 : FVec F S16x4096x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S16x1x1024 .f32 := Host.absf main_arg0
  let main_cst : FVec F S_ .f32 := constant S_ .f32 0x7F800000#32
  let main_v1 : FVec F S16x1x1024 .f32 := broadcastInDim S16x1x1024 ![] bcast_S_S16x1x1024 main_cst
  let main_v2 : IVec S16x1x1024 1 := cmpf .olt main_v0 main_v1
  let main_c : IVec S_ 1 := constantI S_ 1 1#1
  let main_v3 : IVec S_ 1 := (fun x v => Host.reduce IntOp.andi x v reducesTo_S16x1x1024_S_d0_1_2 h_S_) main_v2 main_c
  let main_v4 : FVec F S16x4096x1024 .f32 := Host.absf main_arg1
  let main_cst_0 : FVec F S_ .f32 := constant S_ .f32 0x7F800000#32
  let main_v5 : FVec F S16x4096x1024 .f32 := broadcastInDim S16x4096x1024 ![] bcast_S_S16x4096x1024 main_cst_0
  let main_v6 : IVec S16x4096x1024 1 := cmpf .olt main_v4 main_v5
  let main_c_1 : IVec S_ 1 := constantI S_ 1 1#1
  let main_v7 : IVec S_ 1 := (fun x v => Host.reduce IntOp.andi x v reducesTo_S16x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S16x1x1024 : Shape := ⟨3, ![16, 1, 1024]⟩
abbrev S16x4096x1024 : Shape := ⟨3, ![16, 4096, 1024]⟩
abbrev S1024x1024 : Shape := ⟨2, ![1024, 1024]⟩
abbrev S1024 : Shape := ⟨1, ![1024]⟩
abbrev S1x1x1024 : Shape := ⟨3, ![1, 1, 1024]⟩
abbrev S1x1024x1024 : Shape := ⟨3, ![1, 1024, 1024]⟩
abbrev S1x1024 : Shape := ⟨2, ![1, 1024]⟩
abbrev S1x1 : Shape := ⟨2, ![1, 1]⟩
abbrev S1 : Shape := ⟨1, ![1]⟩

abbrev nBuf : Space → Nat
  | .hbm => 12
  | .vmem => 16
  | .smem => 0
  | _ => 0

abbrev bufTy : (tb : Table) → Fin (tcTables nBuf tb) → BufTy
  | .hbm, ⟨0, _⟩ => ⟨S16x1x1024, .f32⟩
  | .hbm, ⟨1, _⟩ => ⟨S16x4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S16x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .bf16⟩
  | .local _ .vmem, ⟨13, _⟩ => ⟨S1x1, .f32⟩
  | .local _ .vmem, ⟨14, _⟩ => ⟨S1x1024, .f32⟩
  | .local _ .vmem, ⟨15, _⟩ => ⟨S1x1, .f32⟩
  | _, _ => ⟨S16x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  packedbf16_S1x1024_S1x1024_0_0 : (Rect.unit (s := S1x1024) ![0, 0] S1x1024.size inb_S1x1024_S1x1024_0_0).PackedRows (EltTy.packing .bf16)
  reduces_S1x1024_S1 : S1x1024.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  broadcasts_S1x1_S1x1024 : S1x1.Broadcasts S1x1024
  shapeCasts_S1x1024_S1x1x1024 : S1x1024.ShapeCasts S1x1x1024
  dot_S1x1024_S1024x1024_S1x1024_1_1_0_0_n_n_wf : DotDims.WF S1x1024 S1024x1024 S1x1024 [1] [1] [0] [0] [] []
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S16x1x1024.size a
  hwx0_0 : ∀ i : grid0.Coords, EltTy.bits .f32 = 32 ∨ (Rect.block (s := S16x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x4096x1024.size a
  hwx0_1 : ∀ i : grid0.Coords, EltTy.bits .f32 = 32 ∨ (Rect.block (s := S16x4096x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S16x1x1024.size a
  hwx0_8 : ∀ i : grid0.Coords, EltTy.bits .f32 = 32 ∨ (Rect.block (s := S16x1x1024) S1x1x1024.size (cc0_transform_8 i) (hinb0_8 i)).WholeWords (EltTy.packing .f32)

variable [Facts₀]

def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_arg0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16x1x1024 : Shape := ⟨3, ![16, 1, 1024]⟩
abbrev S16x4096x1024 : Shape := ⟨3, ![16, 4096, 1024]⟩
abbrev S1024x1024 : Shape := ⟨2, ![1024, 1024]⟩
abbrev S1024 : Shape := ⟨1, ![1024]⟩
abbrev S1x1x1024 : Shape := ⟨3, ![1, 1, 1024]⟩
abbrev S16x1x4096 : Shape := ⟨3, ![16, 1, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16x1x1024, .f32⟩
  | .hbm, ⟨1, _⟩ => ⟨S16x4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S16x1x1024, .f32⟩
  | .hbm, ⟨9, _⟩ => ⟨S1x1x1024, .f32⟩
  | .hbm, ⟨10, _⟩ => ⟨S16x1x1024, .f32⟩
  | .hbm, ⟨11, _⟩ => ⟨S16x1x1024, .f32⟩
  | .hbm, ⟨12, _⟩ => ⟨S16x4096x1024, .f32⟩
  | .hbm, ⟨13, _⟩ => ⟨S1x1x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S1x1x1024, .f32⟩
  | .hbm, ⟨18, _⟩ => ⟨S16x4096x1024, .f32⟩
  | .hbm, ⟨19, _⟩ => ⟨S16x4096x1024, .f32⟩
  | .hbm, ⟨20, _⟩ => ⟨S16x1x4096, .f32⟩
  | .hbm, ⟨21, _⟩ => ⟨S_, .f32⟩
  | .hbm, ⟨22, _⟩ => ⟨S16x1x4096, .f32⟩
  | .hbm, ⟨23, _⟩ => ⟨S16x1x4096, .f32⟩
  | .hbm, ⟨24, _⟩ => ⟨S16x1x1024, .f32⟩
  | _, _ => ⟨S16x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1x1024_0_1_2 : S1x1x1024.BroadcastsInDim S16x1x1024 (![0, 1, 2] : Fin 3 → Fin S16x1x1024.rank)
  bcast_S1x1x1024_S16x4096x1024_0_1_2 : S1x1x1024.BroadcastsInDim S16x4096x1024 (![0, 1, 2] : Fin 3 → Fin S16x4096x1024.rank)
  bcast_S_S16x1x4096 : S_.BroadcastsInDim S16x1x4096 (![] : Fin 0 → Fin S16x1x4096.rank)
  dot_S16x1x1024_S1024x1024_S16x1x1024_2_1_01_0_n_n_wf : DotDims.WF S16x1x1024 S1024x1024 S16x1x1024 [2] [1] [0, 1] [0] [] []
  dot_S16x4096x1024_S1024x1024_S16x4096x1024_2_1_01_0_n_n_wf : DotDims.WF S16x4096x1024 S1024x1024 S16x4096x1024 [2] [1] [0, 1] [0] [] []
  dot_S16x1x1024_S16x4096x1024_S16x1x4096_2_2_1_1_0_0_wf : DotDims.WF S16x1x1024 S16x4096x1024 S16x1x4096 [2] [2] [1] [1] [0] [0]
  dot_S16x1x4096_S16x4096x1024_S16x1x1024_2_1_1_2_0_0_wf : DotDims.WF S16x1x4096 S16x4096x1024 S16x1x1024 [2] [1] [1] [2] [0] [0]

variable [Facts₀]

def dot_S16x1x1024_S1024x1024_S16x1x1024_2_1_01_0_n_n : DotDims S16x1x1024 S1024x1024 S16x1x1024 where
  lhsContracting := [2]
  rhsContracting := [1]
  lhsNonContracting := [0, 1]
  rhsNonContracting := [0]
  lhsBatch := []
  rhsBatch := []
  wf := dot_S16x1x1024_S1024x1024_S16x1x1024_2_1_01_0_n_n_wf
def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf
def dot_S16x1x1024_S16x4096x1024_S16x1x4096_2_2_1_1_0_0 : DotDims S16x1x1024 S16x4096x1024 S16x1x4096 where
  lhsContracting := [2]
  rhsContracting := [2]
  lhsNonContracting := [1]
  rhsNonContracting := [1]
  lhsBatch := [0]
  rhsBatch := [0]
  wf := dot_S16x1x1024_S16x4096x1024_S16x1x4096_2_2_1_1_0_0_wf
def dot_S16x1x4096_S16x4096x1024_S16x1x1024_2_1_1_2_0_0 : DotDims S16x1x4096 S16x4096x1024 S16x1x1024 where
  lhsContracting := [2]
  rhsContracting := [1]
  lhsNonContracting := [1]
  rhsNonContracting := [2]
  lhsBatch := [0]
  rhsBatch := [0]
  wf := dot_S16x1x4096_S16x4096x1024_S16x1x1024_2_1_1_2_0_0_wf

class Facts : Prop extends Facts₀ where

variable [Facts]
-- ==== Proof.Pieces.lean ====
/-
  What each case of the body leaves in the carried scratch buffers and in the output block, as values.

  The body has three cases. At a batch's first tile it stores the query through the key weights (qk) and the query
  against the key bias (qbk), resets both accumulators, and then adds the tile to each. At a middle tile it leaves qk
  and qbk as they were and adds the tile to each accumulator. At the last tile it does the same and then stores the
  output row computed from the two accumulators it has just written. Every store covers its whole buffer, so what a
  buffer holds afterwards is its last store's value, and a load after a store reads that store's value: each piece
  below is the body's arithmetic applied to the input blocks and, where the case reads them, to what the point
  before left.
-/
import proofs.«102422_j45792941310015_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## A batch's first tile -/

/-- qk: the query through the key weights. -/
theorem first_qk (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .bf16) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x1 .f32) (harg14 : arg14.IsWhole) (hc0 : cond0_0 i) (hc1 : ¬cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay2 x0 x2 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S1x1024) hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread,
    View.ld_unit_zero (S := S1x1x1024) hz3, View.ld_unit_zero (S := S1x1024x1024) hz3, View.ld_unit_zero (S := S1024x1024) hz2,
    View.ld_unit_zero (S := S1024) hz1, View.ld_unit_zero (S := S1x1024) hz2, View.ld_unit_zero (S := S1x1) hz2,
    View.readCov_unit_zero (S := S1x1024) _ hz2, View.readCov_unit_zero (S := S1x1) _ hz2]

/-- qbk: the query against the key bias. -/
theorem first_qbk (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .bf16) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x1 .f32) (harg14 : arg14.IsWhole) (hc0 : cond0_0 i) (hc1 : ¬cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay3 x0 x2 x3 x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S1x1) hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread,
    View.ld_unit_zero (S := S1x1x1024) hz3, View.ld_unit_zero (S := S1x1024x1024) hz3, View.ld_unit_zero (S := S1024x1024) hz2,
    View.ld_unit_zero (S := S1024) hz1, View.ld_unit_zero (S := S1x1024) hz2, View.ld_unit_zero (S := S1x1) hz2,
    View.readCov_unit_zero (S := S1x1024) _ hz2, View.readCov_unit_zero (S := S1x1) _ hz2]

/-- The running a · bert: the first tile added to the zero row. -/
theorem first_ab (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .bf16) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x1 .f32) (harg14 : arg14.IsWhole) (hc0 : cond0_0 i) (hc1 : ¬cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay8 x1 (k0_pay2 x0 x2 x3 x4) (k0_pay3 x0 x2 x3 x5) k0_pay4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S1x1024) hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread,
    View.ld_unit_zero (S := S1x1x1024) hz3, View.ld_unit_zero (S := S1x1024x1024) hz3, View.ld_unit_zero (S := S1024x1024) hz2,
    View.ld_unit_zero (S := S1024) hz1, View.ld_unit_zero (S := S1x1024) hz2, View.ld_unit_zero (S := S1x1) hz2,
    View.readCov_unit_zero (S := S1x1024) _ hz2, View.readCov_unit_zero (S := S1x1) _ hz2]

/-- The running sum of scores: the first tile added to zero. -/
theorem first_sum (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .bf16) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x1 .f32) (harg14 : arg14.IsWhole) (hc0 : cond0_0 i) (hc1 : ¬cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay9 x1 (k0_pay2 x0 x2 x3 x4) (k0_pay3 x0 x2 x3 x5) k0_pay5 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S1x1) hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread,
    View.ld_unit_zero (S := S1x1x1024) hz3, View.ld_unit_zero (S := S1x1024x1024) hz3, View.ld_unit_zero (S := S1024x1024) hz2,
    View.ld_unit_zero (S := S1024) hz1, View.ld_unit_zero (S := S1x1024) hz2, View.ld_unit_zero (S := S1x1) hz2,
    View.readCov_unit_zero (S := S1x1024) _ hz2, View.readCov_unit_zero (S := S1x1) _ hz2]

/-! ## A middle tile -/

/-- The running a · bert: the tile added to what the point before left. -/
theorem mid_ab (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .bf16) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x1 .f32) (harg14 : arg14.IsWhole) (hc0 : ¬cond0_0 i) (hc1 : ¬cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) (xs0 : Vec F S1x1024 .bf16) (xs1 : Vec F S1x1 .f32) (xs2 : Vec F S1x1024 .f32) (xs3 : Vec F S1x1 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay8 x1 xs0 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_B
  dsimp only
  sl_unfold_words
  rw [View.canon_cons_unit_zero (S := S1x1024) hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread,
    View.ld_unit_zero (S := S1x1x1024) hz3, View.ld_unit_zero (S := S1x1024x1024) hz3, View.ld_unit_zero (S := S1024x1024) hz2,
    View.ld_unit_zero (S := S1024) hz1, View.ld_unit_zero (S := S1x1024) hz2, View.ld_unit_zero (S := S1x1) hz2,
    View.readCov_unit_zero (S := S1x1024) _ hz2, View.readCov_unit_zero (S := S1x1) _ hz2]

/-- The running sum of scores: the tile added to what the point before left. -/
theorem mid_sum (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .bf16) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x1 .f32) (harg14 : arg14.IsWhole) (hc0 : ¬cond0_0 i) (hc1 : ¬cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) (xs0 : Vec F S1x1024 .bf16) (xs1 : Vec F S1x1 .f32) (xs2 : Vec F S1x1024 .f32) (xs3 : Vec F S1x1 .f32) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay9 x1 xs0 xs1 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_B
  dsimp only
  sl_unfold_words
  rw [View.canon_cons_unit_zero (S := S1x1) hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread,
    View.ld_unit_zero (S := S1x1x1024) hz3, View.ld_unit_zero (S := S1x1024x1024) hz3, View.ld_unit_zero (S := S1024x1024) hz2,
    View.ld_unit_zero (S := S1024) hz1, View.ld_unit_zero (S := S1x1024) hz2, View.ld_unit_zero (S := S1x1) hz2,
    View.readCov_unit_zero (S := S1x1024) _ hz2, View.readCov_unit_zero (S := S1x1) _ hz2]

/-! ## A batch's last tile -/

theorem last_ab (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .bf16) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x1 .f32) (harg14 : arg14.IsWhole) (hc0 : ¬cond0_0 i) (hc1 : cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) (xs0 : Vec F S1x1024 .bf16) (xs1 : Vec F S1x1 .f32) (xs2 : Vec F S1x1024 .f32) (xs3 : Vec F S1x1 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay8 x1 xs0 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_C
  dsimp only
  sl_unfold_words
  rw [View.canon_cons_unit_zero (S := S1x1024) hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread,
    View.ld_unit_zero (S := S1x1x1024) hz3, View.ld_unit_zero (S := S1x1024x1024) hz3, View.ld_unit_zero (S := S1024x1024) hz2,
    View.ld_unit_zero (S := S1024) hz1, View.ld_unit_zero (S := S1x1024) hz2, View.ld_unit_zero (S := S1x1) hz2,
    View.readCov_unit_zero (S := S1x1024) _ hz2, View.readCov_unit_zero (S := S1x1) _ hz2]

theorem last_sum (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .bf16) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x1 .f32) (harg14 : arg14.IsWhole) (hc0 : ¬cond0_0 i) (hc1 : cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) (xs0 : Vec F S1x1024 .bf16) (xs1 : Vec F S1x1 .f32) (xs2 : Vec F S1x1024 .f32) (xs3 : Vec F S1x1 .f32) :
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay9 x1 xs0 xs1 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_C
  dsimp only
  sl_unfold_words
  rw [View.canon_cons_unit_zero (S := S1x1) hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread,
    View.ld_unit_zero (S := S1x1x1024) hz3, View.ld_unit_zero (S := S1x1024x1024) hz3, View.ld_unit_zero (S := S1024x1024) hz2,
    View.ld_unit_zero (S := S1024) hz1, View.ld_unit_zero (S := S1x1024) hz2, View.ld_unit_zero (S := S1x1) hz2,
    View.readCov_unit_zero (S := S1x1024) _ hz2, View.readCov_unit_zero (S := S1x1) _ hz2]

/-- The output row, from the two accumulators as the last tile leaves them. -/
theorem last_out (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .bf16) (harg11 : arg11.IsWhole) (arg12 : Memref sig .tc .vmem S1x1 .f32) (harg12 : arg12.IsWhole) (arg13 : Memref sig .tc .vmem S1x1024 .f32) (harg13 : arg13.IsWhole) (arg14 : Memref sig .tc .vmem S1x1 .f32) (harg14 : arg14.IsWhole) (hc0 : ¬cond0_0 i) (hc1 : cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) (xs0 : Vec F S1x1024 .bf16) (xs1 : Vec F S1x1 .f32) (xs2 : Vec F S1x1024 .f32) (xs3 : Vec F S1x1 .f32) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay10 (k0_pay8 x1 xs0 xs1 xs2) x6 x7 (k0_pay9 x1 xs0 xs1 xs3) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_C
  dsimp only
  sl_unfold_words
  rw [View.canon_cons_unit_zero (S := S1x1x1024) hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread,
    View.ld_unit_zero (S := S1x1x1024) hz3, View.ld_unit_zero (S := S1x1024x1024) hz3, View.ld_unit_zero (S := S1024x1024) hz2,
    View.ld_unit_zero (S := S1024) hz1, View.ld_unit_zero (S := S1x1024) hz2, View.ld_unit_zero (S := S1x1) hz2,
    View.readCov_unit_zero (S := S1x1024) _ hz2, View.readCov_unit_zero (S := S1x1) _ hz2]

end Cert.KernelIdeal.Pieces

end
-- ==== Proof.Cases.lean ====
/-
  The carried scratch and the output block after each grid point, through the body's arithmetic.

  After a batch's first tile the four scratch buffers hold qk, qbk and the two accumulators after one tile, all
  functions of that point's input blocks alone. After any later tile, qk and qbk are what the point before left,
  and each accumulator is what the point before left plus the tile. At a batch's last tile the output block is the
  output row of the two accumulators as that same point leaves them.
-/
import proofs.«102422_j45792941310015_2_alg».proof.Proof.Pieces

noncomputable section

namespace Cert.KernelIdeal.Cases

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- What the outputs and the scratch hold after the point before t. -/
abbrev prev (c : Dev nD) (t : Fin cfg0.N) :=
  outsAt0 m c (t.val - 1) (Nat.lt_of_le_of_lt (Nat.sub_le _ _) t.isLt)

/-- After a batch's first tile. -/
theorem scratch_first (c : Dev nD) (t : Fin cfg0.N) (h0 : t.val % 4 = 0) :
    (outsAt0 m c t.val t.isLt).2 =
      (k0_pay2 (iblk m c 0 t) (iblk m c 2 t) (iblk m c 3 t) (iblk m c 4 t),
       k0_pay3 (iblk m c 0 t) (iblk m c 2 t) (iblk m c 3 t) (iblk m c 5 t),
       k0_pay8 (iblk m c 1 t) (k0_pay2 (iblk m c 0 t) (iblk m c 2 t) (iblk m c 3 t) (iblk m c 4 t)) (k0_pay3 (iblk m c 0 t) (iblk m c 2 t) (iblk m c 3 t) (iblk m c 5 t)) k0_pay4,
       k0_pay9 (iblk m c 1 t) (k0_pay2 (iblk m c 0 t) (iblk m c 2 t) (iblk m c 3 t) (iblk m c 4 t)) (k0_pay3 (iblk m c 0 t) (iblk m c 2 t) (iblk m c 3 t) (iblk m c 5 t)) k0_pay5) := by
  have h1 : ¬t.val % 4 = 3 := by omega
  rw [outsAt0_A m c t h0 h1]
  dsimp only
  rw [Pieces.first_qk, Pieces.first_qbk, Pieces.first_ab, Pieces.first_sum]

/-- After any later tile. -/
theorem scratch_next (c : Dev nD) (t : Fin cfg0.N) (h0 : ¬t.val % 4 = 0) :
    (outsAt0 m c t.val t.isLt).2 =
      ((prev m c t).2.1, (prev m c t).2.2.1,
       k0_pay8 (iblk m c 1 t) (prev m c t).2.1 (prev m c t).2.2.1 (prev m c t).2.2.2.1,
       k0_pay9 (iblk m c 1 t) (prev m c t).2.1 (prev m c t).2.2.1 (prev m c t).2.2.2.2) := by
  by_cases h1 : t.val % 4 = 3
  · rw [outsAt0_C m c t h0 h1]
    dsimp only
    rw [Pieces.last_ab, Pieces.last_sum]
    rfl
  · rw [outsAt0_B m c t h0 h1]
    dsimp only
    rw [Pieces.mid_ab, Pieces.mid_sum]
    rfl

/-- The output block at a batch's last tile. -/
theorem out_last (c : Dev nD) (t : Fin cfg0.N) (h0 : ¬t.val % 4 = 0) (h1 : t.val % 4 = 3) :
    (outsAt0 m c t.val t.isLt).1 =
      k0_pay10 (k0_pay8 (iblk m c 1 t) (prev m c t).2.1 (prev m c t).2.2.1 (prev m c t).2.2.2.1) (iblk m c 6 t) (iblk m c 7 t)
        (k0_pay9 (iblk m c 1 t) (prev m c t).2.1 (prev m c t).2.2.1 (prev m c t).2.2.2.2) := by
  rw [outsAt0_C m c t h0 h1]
  dsimp only
  rw [Pieces.last_out]

end Cert.KernelIdeal.Cases

end
-- ==== Proof.Spec.lean ====
/-
  The two programs' result, for one batch, as functions of the argument arrays read at coordinates.

  For one batch, with pool a row of length |V|, bert an |S| x |V| matrix, Wq Wk Wv square and bq bk bv rows:
  the query is q = pool · Wqᵀ + bq. The reference forms the keys k = bert · Wkᵀ + bk and the values
  vv = bert · Wvᵀ + bv, the scores a = (q · kᵀ) / √|S|, and returns a · vv.
  The kernel never forms k or vv: it keeps qk = q · Wk and the number qbk = q · bk, so that a score is
  (qk · bert_sᵀ + qbk) · c with c the reciprocal of √|S|, accumulates ab = a · bert and the number Σ a over four
  tiles of bert's rows, and returns ab · Wvᵀ + bv · Σ a.
  The definitions are over any type with a sum and a product: they are read at the extended reals (what the
  programs compute) and at the reals (where the two are shown equal).
-/
import Idealize.ShloMosaic.PureOps.Ideal

noncomputable section

namespace Cert.Spec

variable {R : Type*} [AddCommMonoid R] [Mul R]
variable {V T S : Type*} [Fintype V] [Fintype T] [Fintype S]

/-- The query row: pool · Wqᵀ + bq. -/
def q (pool : V → R) (Wq : V → V → R) (bq : V → R) : V → R := fun o => (∑ v, pool v * Wq o v) + bq o

/-- The query carried through the key projection's weights: q · Wk. -/
def qk (qv : V → R) (Wk : V → V → R) : V → R := fun v => ∑ d, qv d * Wk d v

/-- The query against the key projection's bias: q · bk. -/
def qbk (qv : V → R) (bk : V → R) : R := ∑ d, qv d * bk d

/-- The scores of one tile of rows: (qk · bert_rᵀ + qbk) · c. -/
def att (qkv : V → R) (qbkv c : R) (bert : T → V → R) : T → R := fun r => ((∑ v, qkv v * bert r v) + qbkv) * c

/-- One tile added to the running a · bert. -/
def abStep (acc : V → R) (a : T → R) (bert : T → V → R) : V → R := fun v => acc v + ∑ r, a r * bert r v

/-- One tile added to the running Σ a. -/
def sumStep (acc : R) (a : T → R) : R := acc + ∑ r, a r

/-- The output row from the two accumulators: ab · Wvᵀ + bv · Σ a. -/
def outK (ab : V → R) (Wv : V → V → R) (bv : V → R) (suma : R) : V → R := fun o => (∑ v, ab v * Wv o v) + bv o * suma

/-- The kernel's result row for one batch, bert's rows given in four tiles, the accumulators started at zero and
    the tiles added first to last. -/
def kernelRow (pool : V → R) (Wq : V → V → R) (bq : V → R) (Wk : V → V → R) (bk : V → R) (Wv : V → V → R) (bv : V → R)
    (c : R) (bert : Fin 4 → T → V → R) : V → R :=
  outK
    (abStep (abStep (abStep (abStep (fun _ => 0)
      (att (qk (q pool Wq bq) Wk) (qbk (q pool Wq bq) bk) c (bert 0)) (bert 0))
      (att (qk (q pool Wq bq) Wk) (qbk (q pool Wq bq) bk) c (bert 1)) (bert 1))
      (att (qk (q pool Wq bq) Wk) (qbk (q pool Wq bq) bk) c (bert 2)) (bert 2))
      (att (qk (q pool Wq bq) Wk) (qbk (q pool Wq bq) bk) c (bert 3)) (bert 3))
    Wv bv
    (sumStep (sumStep (sumStep (sumStep 0
      (att (qk (q pool Wq bq) Wk) (qbk (q pool Wq bq) bk) c (bert 0)))
      (att (qk (q pool Wq bq) Wk) (qbk (q pool Wq bq) bk) c (bert 1)))
      (att (qk (q pool Wq bq) Wk) (qbk (q pool Wq bq) bk) c (bert 2)))
      (att (qk (q pool Wq bq) Wk) (qbk (q pool Wq bq) bk) c (bert 3)))

/-- The reference's result row for one batch; `dv` is its division by √|S|. -/
def refRow (pool : V → R) (Wq : V → V → R) (bq : V → R) (Wk : V → V → R) (bk : V → R) (Wv : V → V → R) (bv : V → R)
    (dv : R → R) (bert : S → V → R) : V → R :=
  fun o => ∑ s, dv (∑ d, q pool Wq bq d * ((∑ v, bert s v * Wk d v) + bk d)) * ((∑ v, bert s v * Wv o v) + bv o)

end Cert.Spec

end
-- ==== Proof.Dots.lean ====
/-
  The kernel's two matrix products, read at coordinates over the extended reals.

  Both take a row x of length 1024 and a 1024 × 1024 matrix M and accumulate into zero. The first contracts the
  row with the matrix's second axis, so entry o of the result is Σ_k x_k · M_{o,k} (the row times Mᵀ); the second
  contracts it with the matrix's first axis, so entry v is Σ_k x_k · M_{k,v} (the row times M). Over the extended
  reals a product into a zero accumulator is exactly that sum, with no order and no rounding left in it.
-/
import proofs.«102422_j45792941310015_2_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

/-! ## The row times the transposed matrix -/

theorem rowT_lhs0 (i : S1x1024.Idx) (q : dot_S1x1024_S1024x1024_S1x1024_1_1_0_0_n_n.contr.Idx) :
    (dot_S1x1024_S1024x1024_S1x1024_1_1_0_0_n_n.lhsIdx i q 0).val = (i 0).val := by
  unfold DotDims.lhsIdx
  rw [dif_neg (show ¬(0 : Fin S1x1024.rank) ∈ dot_S1x1024_S1024x1024_S1x1024_1_1_0_0_n_n.lhsBatch by decide), dif_pos (show (0 : Fin S1x1024.rank) ∈ dot_S1x1024_S1024x1024_S1x1024_1_1_0_0_n_n.lhsNonContracting by decide)]
  rfl
theorem rowT_lhs1 (i : S1x1024.Idx) (q : dot_S1x1024_S1024x1024_S1x1024_1_1_0_0_n_n.contr.Idx) :
    (dot_S1x1024_S1024x1024_S1x1024_1_1_0_0_n_n.lhsIdx i q 1).val = (q ⟨0, by decide⟩).val :=
  dot_S1x1024_S1024x1024_S1x1024_1_1_0_0_n_n.lhsIdx_val_of_single rfl i q
theorem rowT_rhs0 (i : S1x1024.Idx) (q : dot_S1x1024_S1024x1024_S1x1024_1_1_0_0_n_n.contr.Idx) :
    (dot_S1x1024_S1024x1024_S1x1024_1_1_0_0_n_n.rhsIdx i q 0).val = (i 1).val := by
  unfold DotDims.rhsIdx
  rw [dif_neg (show ¬(0 : Fin S1024x1024.rank) ∈ dot_S1x1024_S1024x1024_S1x1024_1_1_0_0_n_n.rhsBatch by decide), dif_pos (show (0 : Fin S1024x1024.rank) ∈ dot_S1x1024_S1024x1024_S1x1024_1_1_0_0_n_n.rhsNonContracting by decide)]
  rfl
theorem rowT_rhs1 (i : S1x1024.Idx) (q : dot_S1x1024_S1024x1024_S1x1024_1_1_0_0_n_n.contr.Idx) :
    (dot_S1x1024_S1024x1024_S1x1024_1_1_0_0_n_n.rhsIdx i q 1).val = (q ⟨0, by decide⟩).val :=
  dot_S1x1024_S1024x1024_S1x1024_1_1_0_0_n_n.rhsIdx_val_of_single rfl i q

/-- Entry o of the row times the transposed matrix: Σ_k x_k · M_{o,k}. -/
theorem matmul_rowT {φ₁ φ₂ : FTy} (lhs : FVec Ideal S1x1024 φ₁) (rhs : FVec Ideal S1024x1024 φ₂) (o : Fin 1024) :
    matmul (F := Ideal) dot_S1x1024_S1024x1024_S1x1024_1_1_0_0_n_n none lhs rhs (constant S1x1024 .f32 0x00000000#32) (ix2 (0 : Fin 1) o)
      = ∑ k : Fin 1024, lhs (ix2 (0 : Fin 1) k) * rhs (ix2 o k) := by
  refine (Ideal.matmul_constant_zero_apply dot_S1x1024_S1024x1024_S1x1024_1_1_0_0_n_n none lhs rhs (ix2 (0 : Fin 1) o)).trans ?_
  rw [← Equiv.sum_comp (contrEquiv1 dot_S1x1024_S1024x1024_S1x1024_1_1_0_0_n_n 1024 rfl rfl).symm]
  refine Finset.sum_congr rfl fun k _ => ?_
  have hk := contrEquiv1_symm_val dot_S1x1024_S1024x1024_S1x1024_1_1_0_0_n_n 1024 rfl rfl k
  have el : dot_S1x1024_S1024x1024_S1x1024_1_1_0_0_n_n.lhsIdx (ix2 (0 : Fin 1) o) ((contrEquiv1 dot_S1x1024_S1024x1024_S1x1024_1_1_0_0_n_n 1024 rfl rfl).symm k) = ix2 (0 : Fin 1) k := funext fun a => Fin.ext (by
    match a with
    | ⟨0, _⟩ => exact rowT_lhs0 _ _
    | ⟨1, _⟩ => exact (rowT_lhs1 _ _).trans hk)
  have er : dot_S1x1024_S1024x1024_S1x1024_1_1_0_0_n_n.rhsIdx (ix2 (0 : Fin 1) o) ((contrEquiv1 dot_S1x1024_S1024x1024_S1x1024_1_1_0_0_n_n 1024 rfl rfl).symm k) = ix2 o k := funext fun a => Fin.ext (by
    match a with
    | ⟨0, _⟩ => exact rowT_rhs0 _ _
    | ⟨1, _⟩ => exact (rowT_rhs1 _ _).trans hk)
  rw [el, er]

/-! ## The row times the matrix -/

theorem row_lhs0 (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
theorem row_lhs1 (i : S1x1024.Idx) (q : dot_S1x1024_S1024x1024_S1x1024_1_0_0_1_n_n.contr.Idx) :
    (dot_S1x1024_S1024x1024_S1x1024_1_0_0_1_n_n.lhsIdx i q 1).val = (q ⟨0, by decide⟩).val :=
  dot_S1x1024_S1024x1024_S1x1024_1_0_0_1_n_n.lhsIdx_val_of_single rfl i q
theorem row_rhs0 (i : S1x1024.Idx) (q : dot_S1x1024_S1024x1024_S1x1024_1_0_0_1_n_n.contr.Idx) :
    (dot_S1x1024_S1024x1024_S1x1024_1_0_0_1_n_n.rhsIdx i q 0).val = (q ⟨0, by decide⟩).val :=
  dot_S1x1024_S1024x1024_S1x1024_1_0_0_1_n_n.rhsIdx_val_of_single rfl i q
theorem row_rhs1 (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

/-- Entry v of the row times the matrix: Σ_k x_k · M_{k,v}. -/
theorem matmul_row {φ₁ φ₂ : FTy} (lhs : FVec Ideal S1x1024 φ₁) (rhs : FVec Ideal S1024x1024 φ₂) (v : Fin 1024) :
    matmul (F := Ideal) dot_S1x1024_S1024x1024_S1x1024_1_0_0_1_n_n none lhs rhs (constant S1x1024 .f32 0x00000000#32) (ix2 (0 : Fin 1) v)
      = ∑ k : Fin 1024, lhs (ix2 (0 : Fin 1) k) * rhs (ix2 k v) := by
  refine (Ideal.matmul_constant_zero_apply dot_S1x1024_S1024x1024_S1x1024_1_0_0_1_n_n none lhs rhs (ix2 (0 : Fin 1) v)).trans ?_
  rw [← Equiv.sum_comp (contrEquiv1 dot_S1x1024_S1024x1024_S1x1024_1_0_0_1_n_n 1024 rfl rfl).symm]
  refine Finset.sum_congr rfl fun k _ => ?_
  have hk := contrEquiv1_symm_val dot_S1x1024_S1024x1024_S1x1024_1_0_0_1_n_n 1024 rfl rfl k
  have el : dot_S1x1024_S1024x1024_S1x1024_1_0_0_1_n_n.lhsIdx (ix2 (0 : Fin 1) v) ((contrEquiv1 dot_S1x1024_S1024x1024_S1x1024_1_0_0_1_n_n 1024 rfl rfl).symm k) = ix2 (0 : Fin 1) k := funext fun a => Fin.ext (by
    match a with
    | ⟨0, _⟩ => exact row_lhs0 _ _
    | ⟨1, _⟩ => exact (row_lhs1 _ _).trans hk)
  have er : dot_S1x1024_S1024x1024_S1x1024_1_0_0_1_n_n.rhsIdx (ix2 (0 : Fin 1) v) ((contrEquiv1 dot_S1x1024_S1024x1024_S1x1024_1_0_0_1_n_n 1024 rfl rfl).symm k) = ix2 k v := funext fun a => Fin.ext (by
    match a with
    | ⟨0, _⟩ => exact (row_rhs0 _ _).trans hk
    | ⟨1, _⟩ => exact row_rhs1 _ _)
  rw [el, er]

/-! ## A row's lane sum -/

/-- The sum of a row's 1024 lanes, started from zero, is the sum of its entries. -/
theorem rowSum_apply (src : FVec Ideal S1x1024 .f32) :
    multiReduction (F := Ideal) .add [1] S1 src 0x00000000#32 reduces_S1x1024_S1 (.inl rfl) rfl (ix1 (0 : Fin 1))
      = ∑ k : Fin 1024, src (ix2 (0 : Fin 1) k) := by
  refine (Ideal.multiReduction_add_single src 0x00000000#32 reduces_S1x1024_S1 (.inl rfl) rfl (ix1 (0 : Fin 1))).trans ?_
  refine Finset.sum_congr rfl fun k _ => congrArg src ?_
  funext a
  match a with
  | ⟨0, _⟩ => rfl
  | ⟨1, _⟩ => rfl

end Cert.KernelIdeal.Dots

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  The body's arithmetic, read at coordinates over the extended reals.

  Each pure value the kernel body stores is one function of the values it loaded. Read at an entry, over the
  extended reals (where a change of float format is the identity, a matrix product into zero is a plain sum and a
  lane sum is the sum of the lanes), each is one of the specification's functions of the loaded values' entries:
  the query row, the query through the key weights, the query against the key bias, one tile's scores, one tile
  added to each accumulator, and the output row from the two accumulators.
-/
import proofs.«102422_j45792941310015_2_alg».proof.Proof.Gen.KernelIdeal.Skeleton
import proofs.«102422_j45792941310015_2_alg».proof.Proof.Spec
import proofs.«102422_j45792941310015_2_alg».proof.Proof.Dots
import proofs.«102422_j45792941310015_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Spec

/-- The reciprocal of the square root of the sequence length, as the kernel spells it. -/
abbrev cinv : EReal := Ideal.ofBits .f32 0x3C800000#32

/-- The query row: the pooled row times Wqᵀ, plus bq. -/
theorem pay1_apply (x0 : Vec Ideal S1x1x1024 .f32) (x2 : Vec Ideal S1024x1024 .bf16) (x3 : Vec Ideal S1024 .f32) (o : Fin 1024) :
    k0_pay1 (F := Ideal) x0 x2 x3 (ix2 (0 : Fin 1) o)
      = q (fun v => x0 (ix3 (0 : Fin 1) (0 : Fin 1) v)) (fun o v => x2 (ix2 o v)) (fun o => x3 (ix1 o)) o := by
  unfold k0_pay1 q
  dsimp only
  refine (addf_apply _ _ _).trans ?_
  refine congrArg₂ (· + ·) ?_ ?_
  · refine (Dots.matmul_rowT _ _ o).trans ?_
    refine Finset.sum_congr rfl fun k _ => congrArg₂ (· * ·) ?_ ?_
    · exact shapeCast_1ab_ab_apply x0 _ (0 : Fin 1) k
    · exact congrFun (shapeCast_self x2 _) _
  · exact shapeCast_a_1a_apply x3 _ (0 : Fin 1) o

/-- The query through the key weights: the query row times Wk. -/
theorem pay2_apply (x0 : Vec Ideal S1x1x1024 .f32) (x2 : Vec Ideal S1024x1024 .bf16) (x3 : Vec Ideal S1024 .f32)
    (x4 : Vec Ideal S1024x1024 .bf16) (v : Fin 1024) :
    k0_pay2 (F := Ideal) x0 x2 x3 x4 (ix2 (0 : Fin 1) v)
      = qk (fun d => k0_pay1 (F := Ideal) x0 x2 x3 (ix2 (0 : Fin 1) d)) (fun d v => x4 (ix2 d v)) v := by
  unfold k0_pay2 qk
  dsimp only
  refine (congrFun (shapeCast_self _ _) _).trans ?_
  refine (Dots.matmul_row _ _ v).trans ?_
  exact Finset.sum_congr rfl fun d _ => congrArg₂ (· * ·) rfl (congrFun (shapeCast_self x4 _) _)

/-- The query against the key bias: the sum of the query row's entries times bk's. -/
theorem pay3_apply (x0 : Vec Ideal S1x1x1024 .f32) (x2 : Vec Ideal S1024x1024 .bf16) (x3 : Vec Ideal S1024 .f32)
    (x5 : Vec Ideal S1024 .f32) :
    k0_pay3 (F := Ideal) x0 x2 x3 x5 (ix2 (0 : Fin 1) (0 : Fin 1))
      = qbk (fun d => k0_pay1 (F := Ideal) x0 x2 x3 (ix2 (0 : Fin 1) d)) (fun d => x5 (ix1 d)) := by
  unfold k0_pay3 qbk
  dsimp only
  refine (congrFun (shapeCast_self _ _) _).trans ?_
  refine (shapeCast_a_1a_apply _ _ (0 : Fin 1) (0 : Fin 1)).trans ?_
  refine (Dots.rowSum_apply _).trans ?_
  refine Finset.sum_congr rfl fun d _ => ?_
  refine (mulf_apply _ _ _).trans ?_
  exact congrArg₂ (· * ·) rfl (shapeCast_a_1a_apply x5 _ (0 : Fin 1) d)

/-- The zero row an accumulator is reset to. -/
theorem pay4_apply (i : S1x1024.Idx) : k0_pay4 (F := Ideal) i = 0 := by
  unfold k0_pay4
  refine (congrFun (shapeCast_self _ _) _).trans ?_
  exact Ideal.ofBits_zero_f32

/-- The zero the running sum of scores is reset to. -/
theorem pay5_apply (i : S1x1.Idx) : k0_pay5 (F := Ideal) i = 0 := by
  unfold k0_pay5
  refine (congrFun (shapeCast_self _ _) _).trans ?_
  exact Ideal.ofBits_zero_f32

/-- The tile of bert's rows as the body's matrix: entry (r, v) of the loaded block. -/
theorem pay6_apply (x1 : Vec Ideal S1x1024x1024 .f32) (r v : Fin 1024) :
    k0_pay6 (F := Ideal) x1 (ix2 r v) = x1 (ix3 (0 : Fin 1) r v) := by
  unfold k0_pay6
  exact shapeCast_1ab_ab_apply x1 _ r v

/-- One tile's scores: the carried qk against each row of the tile, plus the carried qbk, times the constant. -/
theorem pay7_apply (x1 : Vec Ideal S1x1024x1024 .f32) (v6 : Vec Ideal S1x1024 .bf16) (v8 : Vec Ideal S1x1 .f32) (r : Fin 1024) :
    k0_pay7 (F := Ideal) x1 v6 v8 (ix2 (0 : Fin 1) r)
      = att (fun v => v6 (ix2 (0 : Fin 1) v)) (v8 (ix2 (0 : Fin 1) (0 : Fin 1))) cinv (fun r v => x1 (ix3 (0 : Fin 1) r v)) r := by
  unfold k0_pay7 att
  dsimp only
  refine (mulf_apply _ _ _).trans ?_
  refine congrArg₂ (· * ·) ?_ rfl
  refine (addf_apply _ _ _).trans ?_
  refine congrArg₂ (· + ·) ?_ ?_
  · refine (Dots.matmul_rowT _ _ r).trans ?_
    exact Finset.sum_congr rfl fun k _ => congrArg₂ (· * ·) rfl (pay6_apply x1 r k)
  · exact Cert.Keepdims.broadcastTo_a1_ab_apply v8 _ (0 : Fin 1) r

/-- One tile added to the running a · bert: the carried row plus the tile's scores times the tile. -/
theorem pay8_apply (x1 : Vec Ideal S1x1024x1024 .f32) (v6 : Vec Ideal S1x1024 .bf16) (v8 : Vec Ideal S1x1 .f32)
    (v14 : Vec Ideal S1x1024 .f32) (v : Fin 1024) :
    k0_pay8 (F := Ideal) x1 v6 v8 v14 (ix2 (0 : Fin 1) v)
      = abStep (fun v => v14 (ix2 (0 : Fin 1) v)) (fun r => k0_pay7 (F := Ideal) x1 v6 v8 (ix2 (0 : Fin 1) r))
          (fun r v => x1 (ix3 (0 : Fin 1) r v)) v := by
  unfold k0_pay8 abStep
  dsimp only
  refine (congrFun (shapeCast_self _ _) _).trans ?_
  refine (addf_apply _ _ _).trans ?_
  refine congrArg₂ (· + ·) rfl ?_
  refine (Dots.matmul_row _ _ v).trans ?_
  exact Finset.sum_congr rfl fun k _ => congrArg₂ (· * ·) rfl (pay6_apply x1 k v)

/-- One tile added to the running sum of scores. -/
theorem pay9_apply (x1 : Vec Ideal S1x1024x1024 .f32) (v6 : Vec Ideal S1x1024 .bf16) (v8 : Vec Ideal S1x1 .f32)
    (v20 : Vec Ideal S1x1 .f32) :
    k0_pay9 (F := Ideal) x1 v6 v8 v20 (ix2 (0 : Fin 1) (0 : Fin 1))
      = sumStep (v20 (ix2 (0 : Fin 1) (0 : Fin 1))) (fun r => k0_pay7 (F := Ideal) x1 v6 v8 (ix2 (0 : Fin 1) r)) := by
  unfold k0_pay9 sumStep
  dsimp only
  refine (congrFun (shapeCast_self _ _) _).trans ?_
  refine (addf_apply _ _ _).trans ?_
  refine congrArg₂ (· + ·) rfl ?_
  refine (shapeCast_a_1a_apply _ _ (0 : Fin 1) (0 : Fin 1)).trans ?_
  exact Dots.rowSum_apply _

/-- The output row: the accumulated a · bert times Wvᵀ, plus bv times the accumulated sum of scores. -/
theorem pay10_apply (v30 : Vec Ideal S1x1024 .f32) (v32 : Vec Ideal S1024x1024 .bf16) (v35 : Vec Ideal S1024 .f32)
    (v36 : Vec Ideal S1x1 .f32) (o : Fin 1024) :
    k0_pay10 (F := Ideal) v30 v32 v35 v36 (ix3 (0 : Fin 1) (0 : Fin 1) o)
      = outK (fun v => v30 (ix2 (0 : Fin 1) v)) (fun o v => v32 (ix2 o v)) (fun o => v35 (ix1 o))
          (v36 (ix2 (0 : Fin 1) (0 : Fin 1))) o := by
  unfold k0_pay10 outK
  dsimp only
  refine (shapeCast_ab_1ab_apply _ _ (0 : Fin 1) (0 : Fin 1) o).trans ?_
  refine (addf_apply _ _ _).trans ?_
  refine congrArg₂ (· + ·) ?_ ?_
  · refine (Dots.matmul_rowT _ _ o).trans ?_
    exact Finset.sum_congr rfl fun k _ => congrArg₂ (· * ·) rfl (congrFun (shapeCast_self v32 _) _)
  · refine (mulf_apply _ _ _).trans ?_
    exact congrArg₂ (· * ·) (shapeCast_a_1a_apply v35 _ (0 : Fin 1) o)
      (Cert.Keepdims.broadcastTo_a1_ab_apply v36 _ (0 : Fin 1) o)

end Cert.KernelIdeal.Pay

end
-- ==== Proof.Steps.lean ====
/-
  One grid point's arithmetic, entries in and entries out.

  Stated over arbitrary loaded values whose entries are known: if the loaded blocks' entries are the pooled row, the
  weights, the biases and a tile of bert's rows, then the first tile's stores have the entries of qk, of qbk, and of
  the two accumulators after one tile; if the carried values' entries are qk, qbk and the accumulators so far, a
  further tile's stores have the entries of the accumulators after one more tile; and the last tile's output store
  has the entries of the output row of the accumulators. Each is the body's arithmetic read at an entry with the
  known entries substituted.
-/
import proofs.«102422_j45792941310015_2_alg».proof.Proof.Payload

noncomputable section

namespace Cert.KernelIdeal.Steps

open Cert.KernelIdeal Cert.KernelIdeal.Gen Idealize.ShloMosaic Idealize.ShloMosaic.ValueIdx Cert.Spec Cert.KernelIdeal.Pay

/-- A tile's scores from carried values with known entries. -/
theorem scores_entries (B1 : Vec Ideal S1x1024x1024 .f32) (v6 : Vec Ideal S1x1024 .bf16) (v8 : Vec Ideal S1x1 .f32)
    (qkv : Fin 1024 → EReal) (qbkv : EReal) (tile : Fin 1024 → Fin 1024 → EReal)
    (h6 : ∀ v, v6 (ix2 (0 : Fin 1) v) = qkv v) (h8 : v8 (ix2 (0 : Fin 1) (0 : Fin 1)) = qbkv)
    (hT : ∀ r v, B1 (ix3 (0 : Fin 1) r v) = tile r v) :
    (fun r => k0_pay7 (F := Ideal) B1 v6 v8 (ix2 (0 : Fin 1) r)) = att qkv qbkv cinv tile := by
  funext r
  refine (pay7_apply B1 v6 v8 r).trans ?_
  rw [show (fun v => v6 (ix2 (0 : Fin 1) v)) = qkv from funext h6, h8,
    show (fun r v => B1 (ix3 (0 : Fin 1) r v)) = tile from funext fun r => funext fun v => hT r v]

/-- One more tile: the two accumulators' entries after it. -/
theorem step_entries (B1 : Vec Ideal S1x1024x1024 .f32) (v6 : Vec Ideal S1x1024 .bf16) (v8 : Vec Ideal S1x1 .f32)
    (v14 : Vec Ideal S1x1024 .f32) (v20 : Vec Ideal S1x1 .f32)
    (qkv : Fin 1024 → EReal) (qbkv : EReal) (tile : Fin 1024 → Fin 1024 → EReal) (ab : Fin 1024 → EReal) (sm : EReal)
    (h6 : ∀ v, v6 (ix2 (0 : Fin 1) v) = qkv v) (h8 : v8 (ix2 (0 : Fin 1) (0 : Fin 1)) = qbkv)
    (hT : ∀ r v, B1 (ix3 (0 : Fin 1) r v) = tile r v)
    (h14 : ∀ v, v14 (ix2 (0 : Fin 1) v) = ab v) (h20 : v20 (ix2 (0 : Fin 1) (0 : Fin 1)) = sm) :
    (∀ v, k0_pay8 (F := Ideal) B1 v6 v8 v14 (ix2 (0 : Fin 1) v) = abStep ab (att qkv qbkv cinv tile) tile v)
      ∧ k0_pay9 (F := Ideal) B1 v6 v8 v20 (ix2 (0 : Fin 1) (0 : Fin 1)) = sumStep sm (att qkv qbkv cinv tile) := by
  have hs := scores_entries B1 v6 v8 qkv qbkv tile h6 h8 hT
  refine ⟨fun v => ?_, ?_⟩
  · refine (pay8_apply B1 v6 v8 v14 v).trans ?_
    rw [hs, show (fun v => v14 (ix2 (0 : Fin 1) v)) = ab from funext h14,
      show (fun r v => B1 (ix3 (0 : Fin 1) r v)) = tile from funext fun r => funext fun v => hT r v]
  · refine (pay9_apply B1 v6 v8 v20).trans ?_
    rw [hs, h20]

/-- The first tile: qk's and qbk's entries from the loaded blocks' entries. -/
theorem first_entries (x0 : Vec Ideal S1x1x1024 .f32) (x2 : Vec Ideal S1024x1024 .bf16) (x3 : Vec Ideal S1024 .f32)
    (x4 : Vec Ideal S1024x1024 .bf16) (x5 : Vec Ideal S1024 .f32)
    (pool : Fin 1024 → EReal) (Wq : Fin 1024 → Fin 1024 → EReal) (bq : Fin 1024 → EReal)
    (Wk : Fin 1024 → Fin 1024 → EReal) (bk : Fin 1024 → EReal)
    (h0 : ∀ v, x0 (ix3 (0 : Fin 1) (0 : Fin 1) v) = pool v) (h2 : ∀ o v, x2 (ix2 o v) = Wq o v) (h3 : ∀ o, x3 (ix1 o) = bq o)
    (h4 : ∀ o v, x4 (ix2 o v) = Wk o v) (h5 : ∀ o, x5 (ix1 o) = bk o) :
    (∀ v, k0_pay2 (F := Ideal) x0 x2 x3 x4 (ix2 (0 : Fin 1) v) = qk (q pool Wq bq) Wk v)
      ∧ k0_pay3 (F := Ideal) x0 x2 x3 x5 (ix2 (0 : Fin 1) (0 : Fin 1)) = qbk (q pool Wq bq) bk := by
  have hq : (fun d => k0_pay1 (F := Ideal) x0 x2 x3 (ix2 (0 : Fin 1) d)) = q pool Wq bq := by
    funext d
    refine (pay1_apply x0 x2 x3 d).trans ?_
    rw [show (fun v => x0 (ix3 (0 : Fin 1) (0 : Fin 1) v)) = pool from funext h0,
      show (fun o v => x2 (ix2 o v)) = Wq from funext fun o => funext fun v => h2 o v,
      show (fun o => x3 (ix1 o)) = bq from funext h3]
  refine ⟨fun v => ?_, ?_⟩
  · refine (pay2_apply x0 x2 x3 x4 v).trans ?_
    rw [hq, show (fun d v => x4 (ix2 d v)) = Wk from funext fun o => funext fun v => h4 o v]
  · refine (pay3_apply x0 x2 x3 x5).trans ?_
    rw [hq, show (fun d => x5 (ix1 d)) = bk from funext h5]

/-- The last tile's output store: the output row's entries from the accumulators' entries. -/
theorem out_entries (v30 : Vec Ideal S1x1024 .f32) (v32 : Vec Ideal S1024x1024 .bf16) (v35 : Vec Ideal S1024 .f32)
    (v36 : Vec Ideal S1x1 .f32) (ab : Fin 1024 → EReal) (Wv : Fin 1024 → Fin 1024 → EReal) (bv : Fin 1024 → EReal) (sm : EReal)
    (h30 : ∀ v, v30 (ix2 (0 : Fin 1) v) = ab v) (h32 : ∀ o v, v32 (ix2 o v) = Wv o v) (h35 : ∀ o, v35 (ix1 o) = bv o)
    (h36 : v36 (ix2 (0 : Fin 1) (0 : Fin 1)) = sm) (o : Fin 1024) :
    k0_pay10 (F := Ideal) v30 v32 v35 v36 (ix3 (0 : Fin 1) (0 : Fin 1) o) = outK ab Wv bv sm o := by
  refine (pay10_apply v30 v32 v35 v36 o).trans ?_
  rw [show (fun v => v30 (ix2 (0 : Fin 1) v)) = ab from funext h30,
    show (fun o v => v32 (ix2 o v)) = Wv from funext fun o => funext fun v => h32 o v,
    show (fun o => v35 (ix1 o)) = bv from funext h35, h36]

/-- The reset values' entries. -/
theorem zero_row (v : Fin 1024) : k0_pay4 (F := Ideal) (ix2 (0 : Fin 1) v) = 0 := pay4_apply _
theorem zero_one : k0_pay5 (F := Ideal) (ix2 (0 : Fin 1) (0 : Fin 1)) = 0 := pay5_apply _

end Cert.KernelIdeal.Steps

end
-- ==== Proof.Blocks.lean ====
/-
  The windows' blocks, read at coordinates, as entries of the argument arrays.

  The grid's point t is batch t / 4, tile t mod 4. At point t the pooled window holds row (t / 4, 0, ·) of the pooled
  array and the output window's block is row (t / 4, 0, ·) of the result; bert's window holds rows
  1024·(t mod 4) … 1024·(t mod 4) + 1023 of batch t / 4; the weight and bias windows hold their whole arrays at
  every point. The three weight matrices reach the region through a change of float format made on the host, which
  over the extended reals is the identity. An element of a window's block sits in the array at
  block index × block size + its coordinate inside the block, on each axis.
-/
import proofs.«102422_j45792941310015_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The index maps over the grid -/

theorem idx0 : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)
theorem idx1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 :=
  (by decide +kernel : ∀ t : Fin grid0.N, win0_3.index t 0 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 :=
  (by decide +kernel : ∀ t : Fin grid0.N, win0_5.index t 0 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 :=
  (by decide +kernel : ∀ t : Fin grid0.N, win0_7.index t 0 = 0)
theorem idx8 : ∀ t : Fin cfg0.N, win0_8.index t 0 = t.val / 4 ∧ win0_8.index t 1 = 0 ∧ win0_8.index t 2 = 0 :=
  (by decide +kernel : ∀ t : Fin grid0.N, win0_8.index t 0 = t.val / 4 ∧ win0_8.index t 1 = 0 ∧ win0_8.index t 2 = 0)

/-! ## The weight matrices as the region finds them -/

/-- The host's change of float format is the identity over the extended reals: the region finds Wq itself. -/
theorem V_wq (c : Dev nD) : (V m c main_v0 : S1024x1024.Idx → EReal) = m ((c : Thread nD τ).loc main_arg2) := by
  dsimp only [V, hostOps0]; after_results; rfl
theorem V_wk (c : Dev nD) : (V m c main_v1 : S1024x1024.Idx → EReal) = m ((c : Thread nD τ).loc main_arg4) := by
  dsimp only [V, hostOps0]; after_results; rfl
theorem V_wv (c : Dev nD) : (V m c main_v2 : S1024x1024.Idx → EReal) = m ((c : Thread nD τ).loc main_arg6) := by
  dsimp only [V, hostOps0]; after_results; rfl

/-! ## The blocks -/

/-- The pooled window at point t: the pooled row of batch t / 4. -/
theorem pool_apply (c : Dev nD) (t : Fin cfg0.N) (b : Fin 16) (hb : b.val = t.val / 4) (v : Fin 1024) :
    (iblk m c 0 t : Vec Ideal S1x1x1024 .f32) (ix3 (0 : Fin 1) (0 : Fin 1) v) = m ((c : Thread nD τ).loc main_arg0) (ix3 b (0 : Fin 1) v) := by
  unfold iblk
  rw [View.read_apply]
  show V m c main_arg0 _ = _
  rw [V_main_arg0 m c]
  refine congrArg _ (funext fun a => Fin.ext ?_)
  obtain ⟨h0, h1, h2⟩ := idx0 t
  match a with
  | ⟨0, _⟩ => show win0_0.index t 0 * 1 + 1 * 0 = b.val; rw [h0, hb]; omega
  | ⟨1, _⟩ => show win0_0.index t 1 * 1 + 1 * 0 = 0; rw [h1]
  | ⟨2, _⟩ => show win0_0.index t 2 * 1024 + 1 * v.val = v.val; rw [h2]; omega

/-- bert's window at point t: rows 1024·(t mod 4) + r of batch t / 4. -/
theorem bert_apply (c : Dev nD) (t : Fin cfg0.N) (b : Fin 16) (hb : b.val = t.val / 4) (r v : Fin 1024) (s : Fin 4096)
    (hs : s.val = r.val + 1024 * (t.val % 4)) :
    (iblk m c 1 t : Vec Ideal S1x1024x1024 .f32) (ix3 (0 : Fin 1) r v) = m ((c : Thread nD τ).loc main_arg1) (ix3 b s v) := by
  unfold iblk
  rw [View.read_apply]
  show V m c main_arg1 _ = _
  rw [V_main_arg1 m c]
  refine congrArg _ (funext fun a => Fin.ext ?_)
  obtain ⟨h0, h1, h2⟩ := idx1 t
  match a with
  | ⟨0, _⟩ => show win0_1.index t 0 * 1 + 1 * 0 = b.val; rw [h0, hb]; omega
  | ⟨1, _⟩ => show win0_1.index t 1 * 1024 + 1 * r.val = s.val; rw [h1, hs]; omega
  | ⟨2, _⟩ => show win0_1.index t 2 * 1024 + 1 * v.val = v.val; rw [h2]; omega

/-- A whole-matrix window at any point holds its array: Wq. -/
theorem wq_apply (c : Dev nD) (t : Fin cfg0.N) (o v : Fin 1024) :
    (iblk m c 2 t : Vec Ideal S1024x1024 .bf16) (ix2 o v) = m ((c : Thread nD τ).loc main_arg2) (ix2 o v) := by
  unfold iblk
  rw [View.read_apply]
  show (V m c main_v0 : S1024x1024.Idx → EReal) _ = _
  rw [V_wq m c]
  refine congrArg _ (funext fun a => Fin.ext ?_)
  obtain ⟨h0, h1⟩ := idx2 t
  match a with
  | ⟨0, _⟩ => show win0_2.index t 0 * 1024 + 1 * o.val = o.val; rw [h0]; omega
  | ⟨1, _⟩ => show win0_2.index t 1 * 1024 + 1 * v.val = v.val; rw [h1]; omega

theorem bq_apply (c : Dev nD) (t : Fin cfg0.N) (o : Fin 1024) :
    (iblk m c 3 t : Vec Ideal S1024 .f32) (ix1 o) = m ((c : Thread nD τ).loc main_arg3) (ix1 o) := by
  unfold iblk
  rw [View.read_apply]
  show V m c main_arg3 _ = _
  rw [V_main_arg3 m c]
  refine congrArg _ (funext fun a => Fin.ext ?_)
  have h0 := idx3 t
  match a with
  | ⟨0, _⟩ => show win0_3.index t 0 * 1024 + 1 * o.val = o.val; rw [h0]; omega

theorem wk_apply (c : Dev nD) (t : Fin cfg0.N) (o v : Fin 1024) :
    (iblk m c 4 t : Vec Ideal S1024x1024 .bf16) (ix2 o v) = m ((c : Thread nD τ).loc main_arg4) (ix2 o v) := by
  unfold iblk
  rw [View.read_apply]
  show (V m c main_v1 : S1024x1024.Idx → EReal) _ = _
  rw [V_wk m c]
  refine congrArg _ (funext fun a => Fin.ext ?_)
  obtain ⟨h0, h1⟩ := idx4 t
  match a with
  | ⟨0, _⟩ => show win0_4.index t 0 * 1024 + 1 * o.val = o.val; rw [h0]; omega
  | ⟨1, _⟩ => show win0_4.index t 1 * 1024 + 1 * v.val = v.val; rw [h1]; omega

theorem bk_apply (c : Dev nD) (t : Fin cfg0.N) (o : Fin 1024) :
    (iblk m c 5 t : Vec Ideal S1024 .f32) (ix1 o) = m ((c : Thread nD τ).loc main_arg5) (ix1 o) := by
  unfold iblk
  rw [View.read_apply]
  show V m c main_arg5 _ = _
  rw [V_main_arg5 m c]
  refine congrArg _ (funext fun a => Fin.ext ?_)
  have h0 := idx5 t
  match a with
  | ⟨0, _⟩ => show win0_5.index t 0 * 1024 + 1 * o.val = o.val; rw [h0]; omega

theorem wv_apply (c : Dev nD) (t : Fin cfg0.N) (o v : Fin 1024) :
    (iblk m c 6 t : Vec Ideal S1024x1024 .bf16) (ix2 o v) = m ((c : Thread nD τ).loc main_arg6) (ix2 o v) := by
  unfold iblk
  rw [View.read_apply]
  show (V m c main_v2 : S1024x1024.Idx → EReal) _ = _
  rw [V_wv m c]
  refine congrArg _ (funext fun a => Fin.ext ?_)
  obtain ⟨h0, h1⟩ := idx6 t
  match a with
  | ⟨0, _⟩ => show win0_6.index t 0 * 1024 + 1 * o.val = o.val; rw [h0]; omega
  | ⟨1, _⟩ => show win0_6.index t 1 * 1024 + 1 * v.val = v.val; rw [h1]; omega

theorem bv_apply (c : Dev nD) (t : Fin cfg0.N) (o : Fin 1024) :
    (iblk m c 7 t : Vec Ideal S1024 .f32) (ix1 o) = m ((c : Thread nD τ).loc main_arg7) (ix1 o) := by
  unfold iblk
  rw [View.read_apply]
  show V m c main_arg7 _ = _
  rw [V_main_arg7 m c]
  refine congrArg _ (funext fun a => Fin.ext ?_)
  have h0 := idx7 t
  match a with
  | ⟨0, _⟩ => show win0_7.index t 0 * 1024 + 1 * o.val = o.val; rw [h0]; omega

end Cert.KernelIdeal.Blocks

end
-- ==== Proof.Result.lean ====
/-
  The kernel's result array as one function of the argument arrays.

  Entry (b, 0, o) of the result is the specification's kernel row of batch b at o: the pooled row of batch b, the
  three weight matrices and biases, and bert's 4096 rows of batch b cut into four tiles of 1024 rows, row r of
  tile j being row 1024·j + r. Pairing (j, r) with 1024·j + r is a bijection between the tiles' rows and the
  batch's rows, which is what lets a sum over the four tiles be read as the sum over all rows.
-/
import proofs.«102422_j45792941310015_2_alg».proof.Proof.Spec
import Idealize.ShloMosaic.Lib.ValueIdx
import Mathlib.Logic.Equiv.Fin.Basic

noncomputable section

namespace Cert.Result

open Idealize.ShloMosaic Idealize.ShloMosaic.ValueIdx Cert.Spec

/-- Tile j's row r is the batch's row 1024·j + r: a bijection. -/
def tileEquiv : Fin 4 × Fin 1024 ≃ Fin 4096 := finProdFinEquiv

/-- Row r of tile j, as a row of the batch. -/
def tileRow (j : Fin 4) (r : Fin 1024) : Fin 4096 := tileEquiv (j, r)

theorem tileRow_val (j : Fin 4) (r : Fin 1024) : (tileRow j r).val = r.val + 1024 * j.val := rfl

/-- The kernel's result at batch b, output coordinate o, of the argument arrays. -/
def kernelAt (X0 : (⟨3, ![16, 1, 1024]⟩ : Shape).Idx → EReal) (X1 : (⟨3, ![16, 4096, 1024]⟩ : Shape).Idx → EReal)
    (X2 : (⟨2, ![1024, 1024]⟩ : Shape).Idx → EReal) (X3 : (⟨1, ![1024]⟩ : Shape).Idx → EReal)
    (X4 : (⟨2, ![1024, 1024]⟩ : Shape).Idx → EReal) (X5 : (⟨1, ![1024]⟩ : Shape).Idx → EReal)
    (X6 : (⟨2, ![1024, 1024]⟩ : Shape).Idx → EReal) (X7 : (⟨1, ![1024]⟩ : Shape).Idx → EReal)
    (b : Fin 16) (o : Fin 1024) : EReal :=
  kernelRow (fun v => X0 (ix3 b (0 : Fin 1) v)) (fun o v => X2 (ix2 o v)) (fun o => X3 (ix1 o)) (fun o v => X4 (ix2 o v))
    (fun o => X5 (ix1 o)) (fun o v => X6 (ix2 o v)) (fun o => X7 (ix1 o)) (Ideal.ofBits .f32 0x3C800000#32)
    (fun j r v => X1 (ix3 b (tileRow j r) v)) o

/-- The kernel's result array. -/
def kernelG (X0 : (⟨3, ![16, 1, 1024]⟩ : Shape).Idx → EReal) (X1 : (⟨3, ![16, 4096, 1024]⟩ : Shape).Idx → EReal)
    (X2 : (⟨2, ![1024, 1024]⟩ : Shape).Idx → EReal) (X3 : (⟨1, ![1024]⟩ : Shape).Idx → EReal)
    (X4 : (⟨2, ![1024, 1024]⟩ : Shape).Idx → EReal) (X5 : (⟨1, ![1024]⟩ : Shape).Idx → EReal)
    (X6 : (⟨2, ![1024, 1024]⟩ : Shape).Idx → EReal) (X7 : (⟨1, ![1024]⟩ : Shape).Idx → EReal) :
    (⟨3, ![16, 1, 1024]⟩ : Shape).Idx → EReal :=
  fun i => kernelAt X0 X1 X2 X3 X4 X5 X6 X7 ⟨(i 0).val, (i 0).isLt⟩ ⟨(i 2).val, (i 2).isLt⟩

theorem kernelG_apply (X0 : (⟨3, ![16, 1, 1024]⟩ : Shape).Idx → EReal) (X1 : (⟨3, ![16, 4096, 1024]⟩ : Shape).Idx → EReal)
    (X2 : (⟨2, ![1024, 1024]⟩ : Shape).Idx → EReal) (X3 : (⟨1, ![1024]⟩ : Shape).Idx → EReal)
    (X4 : (⟨2, ![1024, 1024]⟩ : Shape).Idx → EReal) (X5 : (⟨1, ![1024]⟩ : Shape).Idx → EReal)
    (X6 : (⟨2, ![1024, 1024]⟩ : Shape).Idx → EReal) (X7 : (⟨1, ![1024]⟩ : Shape).Idx → EReal)
    (b : Fin 16) (u : Fin 1) (o : Fin 1024) :
    kernelG X0 X1 X2 X3 X4 X5 X6 X7 (ix3 b u o) = kernelAt X0 X1 X2 X3 X4 X5 X6 X7 b o := rfl

end Cert.Result

end
-- ==== Proof.Chain.lean ====
/-
  A batch's four grid points, in the specification's terms.

  Fix a core and a batch b. After the batch's first point the scratch holds qk, qbk and the accumulators after tile
  0; each later point keeps qk and qbk and adds its tile to each accumulator; at the fourth point the output block
  is the output row of the accumulators after tile 3. Chaining the four points gives entry (b, 0, o) of the result
  array: the kernel's row of batch b at o.
-/
import proofs.«102422_j45792941310015_2_alg».proof.Proof.Cases
import proofs.«102422_j45792941310015_2_alg».proof.Proof.Steps
import proofs.«102422_j45792941310015_2_alg».proof.Proof.Blocks
import proofs.«102422_j45792941310015_2_alg».proof.Proof.Result

noncomputable section

namespace Cert.KernelIdeal.Chain

open Cert.KernelIdeal Cert.KernelIdeal.Gen Idealize.ShloMosaic Idealize.ShloMosaic.TcCoe Idealize.SL.Sem
open Idealize.ShloMosaic.ValueIdx Cert.Spec Cert.Result Cert.KernelIdeal.Pay

variable (m : (ℓ : Loc nD τ sig) → Buf (Elt Ideal) ℓ)

/-! ## The argument arrays at a core, by coordinates -/

def pool (c : Dev nD) (b : Fin 16) : Fin 1024 → EReal := fun v => (m ((c : Thread nD τ).loc main_arg0)) (ix3 b (0 : Fin 1) v)
def tile (c : Dev nD) (b : Fin 16) (j : Fin 4) : Fin 1024 → Fin 1024 → EReal := fun r v => (m ((c : Thread nD τ).loc main_arg1)) (ix3 b (tileRow j r) v)
def Wq (c : Dev nD) : Fin 1024 → Fin 1024 → EReal := fun o v => (m ((c : Thread nD τ).loc main_arg2)) (ix2 o v)
def bq (c : Dev nD) : Fin 1024 → EReal := fun o => (m ((c : Thread nD τ).loc main_arg3)) (ix1 o)
def Wk (c : Dev nD) : Fin 1024 → Fin 1024 → EReal := fun o v => (m ((c : Thread nD τ).loc main_arg4)) (ix2 o v)
def bk (c : Dev nD) : Fin 1024 → EReal := fun o => (m ((c : Thread nD τ).loc main_arg5)) (ix1 o)
def Wv (c : Dev nD) : Fin 1024 → Fin 1024 → EReal := fun o v => (m ((c : Thread nD τ).loc main_arg6)) (ix2 o v)
def bv (c : Dev nD) : Fin 1024 → EReal := fun o => (m ((c : Thread nD τ).loc main_arg7)) (ix1 o)

/-- The batch's qk, qbk, and tile j's scores. -/
def QK (c : Dev nD) (b : Fin 16) : Fin 1024 → EReal := qk (q (pool m c b) (Wq m c) (bq m c)) (Wk m c)
def QBK (c : Dev nD) (b : Fin 16) : EReal := qbk (q (pool m c b) (Wq m c) (bq m c)) (bk m c)
def A (c : Dev nD) (b : Fin 16) (j : Fin 4) : Fin 1024 → EReal := att (QK m c b) (QBK m c b) cinv (tile m c b j)

/-! ## The scratch after a point -/

/-- After point t the scratch holds batch b's qk and qbk, and the accumulators `ab` and `sm`. -/
def Holds (c : Dev nD) (t : Fin cfg0.N) (b : Fin 16) (ab : Fin 1024 → EReal) (sm : EReal) : Prop :=
  (∀ v, (outsAt0 m c t.val t.isLt).2.1 (ix2 (0 : Fin 1) v) = QK m c b v)
  ∧ (outsAt0 m c t.val t.isLt).2.2.1 (ix2 (0 : Fin 1) (0 : Fin 1)) = QBK m c b
  ∧ (∀ v, (outsAt0 m c t.val t.isLt).2.2.2.1 (ix2 (0 : Fin 1) v) = ab v)
  ∧ (outsAt0 m c t.val t.isLt).2.2.2.2 (ix2 (0 : Fin 1) (0 : Fin 1)) = sm

/-- The point before t is t'. -/
theorem prev_eq (c : Dev nD) (t t' : Fin cfg0.N) (h : t'.val + 1 = t.val) :
    Cases.prev m c t = outsAt0 m c t'.val t'.isLt := by
  obtain ⟨n, hn⟩ := t
  obtain ⟨n', hn'⟩ := t'
  have h' : n' + 1 = n := h
  subst h'
  rfl

/-- bert's block at point t is tile j of batch b. -/
theorem tile_apply (c : Dev nD) (t : Fin cfg0.N) (b : Fin 16) (hb : b.val = t.val / 4) (j : Fin 4) (hj : j.val = t.val % 4)
    (r v : Fin 1024) : (iblk m c 1 t : Vec Ideal S1x1024x1024 .f32) (ix3 (0 : Fin 1) r v) = tile m c b j r v :=
  Blocks.bert_apply m c t b hb r v (tileRow j r) (by rw [tileRow_val, hj])

/-- After a batch's first point. -/
theorem holds_first (c : Dev nD) (t : Fin cfg0.N) (h0 : t.val % 4 = 0) (b : Fin 16) (hb : b.val = t.val / 4) :
    Holds m c t b (abStep (fun _ => 0) (A m c b 0) (tile m c b 0)) (sumStep 0 (A m c b 0)) := by
  unfold Holds
  rw [Cases.scratch_first m c t h0]
  dsimp only
  obtain ⟨e2, e3⟩ := Steps.first_entries (iblk m c 0 t) (iblk m c 2 t) (iblk m c 3 t) (iblk m c 4 t) (iblk m c 5 t)
    (pool m c b) (Wq m c) (bq m c) (Wk m c) (bk m c)
    (fun v => Blocks.pool_apply m c t b hb v) (fun o v => Blocks.wq_apply m c t o v) (fun o => Blocks.bq_apply m c t o)
    (fun o v => Blocks.wk_apply m c t o v) (fun o => Blocks.bk_apply m c t o)
  obtain ⟨e8, e9⟩ := Steps.step_entries (iblk m c 1 t)
    (k0_pay2 (iblk m c 0 t) (iblk m c 2 t) (iblk m c 3 t) (iblk m c 4 t))
    (k0_pay3 (iblk m c 0 t) (iblk m c 2 t) (iblk m c 3 t) (iblk m c 5 t)) (k0_pay4 (F := Ideal)) (k0_pay5 (F := Ideal))
    (QK m c b) (QBK m c b) (tile m c b 0) (fun _ => 0) 0 e2 e3
    (fun r v => tile_apply m c t b hb 0 (by show 0 = t.val % 4; omega) r v) Steps.zero_row Steps.zero_one
  exact ⟨e2, e3, e8, e9⟩

/-- After a later point: one more tile in each accumulator. -/
theorem holds_next (c : Dev nD) (t t' : Fin cfg0.N) (ht : t'.val + 1 = t.val) (h0 : ¬t.val % 4 = 0)
    (b : Fin 16) (hb : b.val = t.val / 4) (j : Fin 4) (hj : j.val = t.val % 4)
    (ab : Fin 1024 → EReal) (sm : EReal) (hp : Holds m c t' b ab sm) :
    Holds m c t b (abStep ab (A m c b j) (tile m c b j)) (sumStep sm (A m c b j)) := by
  unfold Holds at hp ⊢
  rw [Cases.scratch_next m c t h0, prev_eq m c t t' ht]
  dsimp only
  obtain ⟨h6, h8, h14, h20⟩ := hp
  obtain ⟨e8, e9⟩ := Steps.step_entries (iblk m c 1 t)
    (outsAt0 m c t'.val t'.isLt).2.1 (outsAt0 m c t'.val t'.isLt).2.2.1
    (outsAt0 m c t'.val t'.isLt).2.2.2.1 (outsAt0 m c t'.val t'.isLt).2.2.2.2
    (QK m c b) (QBK m c b) (tile m c b j) ab sm h6 h8 (fun r v => tile_apply m c t b hb j hj r v) h14 h20
  exact ⟨h6, h8, e8, e9⟩

/-- The output block's entries at a batch's last point. -/
theorem out_entry (c : Dev nD) (t t' : Fin cfg0.N) (ht : t'.val + 1 = t.val) (h0 : ¬t.val % 4 = 0) (h1 : t.val % 4 = 3)
    (b : Fin 16) (hb : b.val = t.val / 4) (ab : Fin 1024 → EReal) (sm : EReal) (hp : Holds m c t' b ab sm) (o : Fin 1024) :
    (outsAt0 m c t.val t.isLt).1 (ix3 (0 : Fin 1) (0 : Fin 1) o)
      = outK (abStep ab (A m c b 3) (tile m c b 3)) (Wv m c) (bv m c) (sumStep sm (A m c b 3)) o := by
  unfold Holds at hp
  rw [Cases.out_last m c t h0 h1, prev_eq m c t t' ht]
  obtain ⟨h6, h8, h14, h20⟩ := hp
  obtain ⟨e8, e9⟩ := Steps.step_entries (iblk m c 1 t)
    (outsAt0 m c t'.val t'.isLt).2.1 (outsAt0 m c t'.val t'.isLt).2.2.1
    (outsAt0 m c t'.val t'.isLt).2.2.2.1 (outsAt0 m c t'.val t'.isLt).2.2.2.2
    (QK m c b) (QBK m c b) (tile m c b 3) ab sm h6 h8
    (fun r v => tile_apply m c t b hb 3 (by show 3 = t.val % 4; omega) r v) h14 h20
  exact Steps.out_entries _ (iblk m c 6 t) (iblk m c 7 t) _ _ (Wv m c) (bv m c) _ e8
    (fun o v => Blocks.wv_apply m c t o v) (fun o => Blocks.bv_apply m c t o) e9 o

/-! ## The four points chained -/

/-- At a batch's last point the output block's entry o is the kernel's row of the batch at o. -/
theorem out_apply (c : Dev nD) (t : Fin cfg0.N) (h3 : t.val % 4 = 3) (b : Fin 16) (hb : b.val = t.val / 4) (o : Fin 1024) :
    (outsAt0 m c t.val t.isLt).1 (ix3 (0 : Fin 1) (0 : Fin 1) o)
      = kernelAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b o := by
  have hN : cfg0.N = 64 := N_0
  have ht := t.isLt
  have H3 := holds_first m c ⟨t.val - 3, by omega⟩ (by show (t.val - 3) % 4 = 0; omega) b (by show b.val = (t.val - 3) / 4; omega)
  have H2 := holds_next m c ⟨t.val - 2, by omega⟩ ⟨t.val - 3, by omega⟩ (by show t.val - 3 + 1 = t.val - 2; omega)
    (by show ¬(t.val - 2) % 4 = 0; omega) b (by show b.val = (t.val - 2) / 4; omega) 1 (by show 1 = (t.val - 2) % 4; omega) _ _ H3
  have H1 := holds_next m c ⟨t.val - 1, by omega⟩ ⟨t.val - 2, by omega⟩ (by show t.val - 2 + 1 = t.val - 1; omega)
    (by show ¬(t.val - 1) % 4 = 0; omega) b (by show b.val = (t.val - 1) / 4; omega) 2 (by show 2 = (t.val - 1) % 4; omega) _ _ H2
  exact (out_entry m c t ⟨t.val - 1, by omega⟩ (by show t.val - 1 + 1 = t.val; omega) (by omega) h3 b hb _ _ H1 o).trans rfl

end Cert.KernelIdeal.Chain

end
-- ==== Proof.Final.lean ====
/-
  From the output blocks to the result array.

  The output window's block at grid point t is row (t / 4, 0, ·) of the result array, and it is written back at the
  points t ≡ 3 (mod 4), the last tile of each batch. What is written back there is, entry by entry, the kernel's
  row of batch t / 4. The sixteen blocks written back are the sixteen rows of the array, so every entry of the
  array is covered — row b by point 4·b + 3 — and the array ends holding the kernel's result function of the
  argument arrays.
-/
import proofs.«102422_j45792941310015_2_alg».proof.Proof.Chain
import proofs.«102422_j45792941310015_2_alg».proof.Proof.Gen.KernelIdeal.Value

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Result

variable (m : (ℓ : Loc nD τ sig) → Buf (Elt Ideal) ℓ) (ρ : Dev nD → PrngReg)

/-- The result array's contents: the kernel's result function of the argument arrays at core c. -/
abbrev G (c : Dev nD) : Buf (Elt Ideal) ((c : Thread nD τ).loc main_v3) := kernelG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- Entry (0, 0, o) of point t's output block sits at (t / 4, 0, o) in the array. -/
theorem emb_out (t : Fin cfg0.N) (b : Fin 16) (hb : b.val = t.val / 4) (o : Fin 1024) :
    ((cfg0.win 8).blk t).view.emb (ix3 (0 : Fin 1) (0 : Fin 1) o) = ix3 b (0 : Fin 1) o := by
  funext a
  apply Fin.ext
  obtain ⟨h0, h1, h2⟩ := Blocks.idx8 t
  match a with
  | ⟨0, _⟩ => show win0_8.index t 0 * 1 + 1 * 0 = b.val; rw [h0, hb]; omega
  | ⟨1, _⟩ => show win0_8.index t 1 * 1 + 1 * 0 = 0; rw [h1]
  | ⟨2, _⟩ => show win0_8.index t 2 * 1024 + 1 * o.val = o.val; rw [h2]; omega

/-- What a batch's last point writes back is that batch's row of the result function. -/
theorem flushed_eq (c : Dev nD) (t : Fin cfg0.N) (hf : (cfg0.win 8).flush t = true) :
    (dats m 0 c).flushed 8 t = ((cfg0.win 8).blk t).view.read (Elt Ideal) (G m c) := by
  have h3 : t.val % 4 = 3 := (flush0_8 t).mp hf
  have hN : cfg0.N = 64 := N_0
  have ht := t.isLt
  rw [Value.flushed8]
  funext y
  obtain ⟨u0, u1, o, rfl⟩ : ∃ (u0 : Fin 1) (u1 : Fin 1) (o : Fin 1024), y = ix3 u0 u1 o := ⟨y 0, y 1, y 2, eq_ix3 y⟩
  obtain rfl : u0 = 0 := Subsingleton.elim _ _
  obtain rfl : u1 = 0 := Subsingleton.elim _ _
  show (outsAt0 m c t.val t.isLt).1 (ix3 (0 : Fin 1) (0 : Fin 1) o)
    = G m c (((cfg0.win 8).blk t).view.emb (ix3 (0 : Fin 1) (0 : Fin 1) o))
  rw [emb_out t ⟨t.val / 4, by omega⟩ rfl o, Chain.out_apply m c t h3 ⟨t.val / 4, by omega⟩ rfl o]
  rfl

/-- An entry of the array is in point t's block iff each coordinate is in the block's range on its axis. -/
theorem mem_blk (t : Fin cfg0.N) (i : S16x1x1024.Idx) :
    i ∈ ((cfg0.win 8).blk t).view.set ↔ ∀ a : Fin 3, win0_8.index t a * S1x1x1024.size a ≤ (i a).val
      ∧ (i a).val < win0_8.index t a * S1x1x1024.size a + S1x1x1024.size a := by
  show i ∈ ((View.whole main_v3).slice (win0_8.rect t)).set ↔ _
  rw [View.set_slice_whole, Rect.mem_set_unit]
  exact Iff.rfl

/-- Row b of the array is the block written back at point 4·b + 3. -/
theorem cover (i : S16x1x1024.Idx) :
    ∃ t : Fin cfg0.N, (cfg0.win 8).flush t = true ∧ i ∈ ((cfg0.win 8).blk t).view.set := by
  have hN : cfg0.N = 64 := N_0
  have hi0 : (i 0).val < 16 := (i 0).isLt
  have hi1 : (i 1).val < 1 := (i 1).isLt
  have hi2 : (i 2).val < 1024 := (i 2).isLt
  obtain ⟨t, htv⟩ : ∃ t : Fin cfg0.N, t.val = 4 * (i 0).val + 3 := ⟨⟨4 * (i 0).val + 3, by omega⟩, rfl⟩
  refine ⟨t, (flush0_8 t).mpr (by omega), ?_⟩
  rw [mem_blk]
  obtain ⟨h0, h1, h2⟩ := Blocks.idx8 t
  intro a
  match a with
  | ⟨0, _⟩ =>
    show win0_8.index t (0 : Fin 3) * 1 ≤ (i 0).val ∧ (i 0).val < win0_8.index t (0 : Fin 3) * 1 + 1
    rw [h0]; omega
  | ⟨1, _⟩ =>
    show win0_8.index t (1 : Fin 3) * 1 ≤ (i 1).val ∧ (i 1).val < win0_8.index t (1 : Fin 3) * 1 + 1
    rw [h1]; omega
  | ⟨2, _⟩ =>
    show win0_8.index t (2 : Fin 3) * 1024 ≤ (i 2).val ∧ (i 2).val < win0_8.index t (2 : Fin 3) * 1024 + 1024
    rw [h2]; omega

/-- The result array after the run. -/
theorem final_out (c : Dev nD) : (dats m 0 c).arrAt 8 cfg0.N = G m c :=
  (dats m 0 c).arrAt_eq_of_cover 8 (G m c) (flushed_eq m c) cover

/-- The run, read: the result array at the kernel's result function of the arguments, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_out m c), (h c).2⟩) (Value.run_blocks m ρ)

end Cert.KernelIdeal.Final

end
-- ==== Proof.RefValue.lean ====
/-
  The reference, read at coordinates over the extended reals.

  Entry (b, 0, o) of the reference's result is Σ_s a_s · vv_{s,o} over the 4096 rows s of batch b, where
  vv_{s,o} = Σ_v bert_{s,v} · Wv_{o,v} + bv_o is the value projection, a_s = (Σ_d q_d · k_{s,d}) / 64 the score with
  k_{s,d} = Σ_v bert_{s,v} · Wk_{d,v} + bk_d the key projection and q_d = Σ_v pool_v · Wq_{d,v} + bq_d the query: each
  host operation read at an index, the contractions as sums over the contracted coordinate, the broadcasts at the
  coordinate they keep. That is the specification's reference row of the argument arrays' entries.
-/
import proofs.«102422_j45792941310015_2_alg».proof.Proof.Gen.ReferenceIdeal.Read
import proofs.«102422_j45792941310015_2_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Spec

/-- The query: entry (b, 0, d) of the pooled rows times Wqᵀ plus bq. -/
theorem query_apply (x0 : (⟨S16x1x1024, .f32⟩ : BufTy).Contents (Elt Ideal)) (x2 : (⟨S1024x1024, .f32⟩ : BufTy).Contents (Elt Ideal)) (x3 : (⟨S1024, .f32⟩ : BufTy).Contents (Elt Ideal)) (b : Fin 16) (d : Fin 1024) :
    val_main_v3 (F := Ideal) x0 x2 x3 (ix3 b (0 : Fin 1) d)
      = q (fun v => x0 (ix3 b (0 : Fin 1) v)) (fun o v => x2 (ix2 o v)) (fun o => x3 (ix1 o)) d := by
  rw [val_main_v3_apply, val_main_v0_apply, val_main_v2_apply, val_main_v1_apply]
  unfold q
  refine congrArg₂ (· + ·) (Finset.sum_congr rfl fun k _ => congrArg₂ (· * ·) (congrArg x0 ?_) (congrArg x2 ?_)) (congrArg x3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- A projection of bert: entry (b, s, d) of bert times Wᵀ plus the bias — the keys with (Wk, bk). -/
theorem keys_apply (x1 : (⟨S16x4096x1024, .f32⟩ : BufTy).Contents (Elt Ideal)) (x4 : (⟨S1024x1024, .f32⟩ : BufTy).Contents (Elt Ideal)) (x5 : (⟨S1024, .f32⟩ : BufTy).Contents (Elt Ideal)) (b : Fin 16) (s : Fin 4096) (d : Fin 1024) :
    val_main_v7 (F := Ideal) x1 x4 x5 (ix3 b s d)
      = (∑ v : Fin 1024, x1 (ix3 b s v) * x4 (ix2 d v)) + x5 (ix1 d) := by
  rw [val_main_v7_apply, val_main_v4_apply, val_main_v6_apply, val_main_v5_apply]
  refine congrArg₂ (· + ·) (Finset.sum_congr rfl fun k _ => congrArg₂ (· * ·) (congrArg x1 ?_) (congrArg x4 ?_)) (congrArg x5 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- … and the values with (Wv, bv). -/
theorem values_apply (x1 : (⟨S16x4096x1024, .f32⟩ : BufTy).Contents (Elt Ideal)) (x6 : (⟨S1024x1024, .f32⟩ : BufTy).Contents (Elt Ideal)) (x7 : (⟨S1024, .f32⟩ : BufTy).Contents (Elt Ideal)) (b : Fin 16) (s : Fin 4096) (d : Fin 1024) :
    val_main_v11 (F := Ideal) x1 x6 x7 (ix3 b s d)
      = (∑ v : Fin 1024, x1 (ix3 b s v) * x6 (ix2 d v)) + x7 (ix1 d) := by
  rw [val_main_v11_apply, val_main_v8_apply, val_main_v10_apply, val_main_v9_apply]
  refine congrArg₂ (· + ·) (Finset.sum_congr rfl fun k _ => congrArg₂ (· * ·) (congrArg x1 ?_) (congrArg x6 ?_)) (congrArg x7 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The scores: entry (b, 0, s) is the query against row s's key, divided by 64. -/
theorem scores_apply (x0 : (⟨S16x1x1024, .f32⟩ : BufTy).Contents (Elt Ideal)) (x1 : (⟨S16x4096x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (b : Fin 16) (s : Fin 4096) :
    val_main_v14 (F := Ideal) x0 x1 x2 x3 x4 x5 (ix3 b (0 : Fin 1) s)
      = Ideal.div (∑ d : Fin 1024, q (fun v => x0 (ix3 b (0 : Fin 1) v)) (fun o v => x2 (ix2 o v)) (fun o => x3 (ix1 o)) d
          * ((∑ v : Fin 1024, x1 (ix3 b s v) * x4 (ix2 d v)) + x5 (ix1 d))) (Ideal.ofBits .f32 0x42800000#32) := by
  rw [val_main_v14_apply, val_main_v13_apply, val_main_cst_apply, val_main_v12_apply]
  refine congrArg₂ Ideal.div (Finset.sum_congr rfl fun d _ => ?_) rfl
  have el : lidx_main_v12 (ix3 b (0 : Fin 1) s) d = ix3 b (0 : Fin 1) d := funext fun a => Fin.ext (by match a with | ⟨0, _⟩ => rfl | ⟨1, _⟩ => rfl | ⟨2, _⟩ => rfl)
  have er : ridx_main_v12 (ix3 b (0 : Fin 1) s) d = ix3 b s d := funext fun a => Fin.ext (by match a with | ⟨0, _⟩ => rfl | ⟨1, _⟩ => rfl | ⟨2, _⟩ => rfl)
  rw [el, er, query_apply, keys_apply]

/-- The result: entry (b, 0, o) is the specification's reference row of batch b at o. -/
theorem result_apply (x0 : (⟨S16x1x1024, .f32⟩ : BufTy).Contents (Elt Ideal)) (x1 : (⟨S16x4096x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (b : Fin 16) (o : Fin 1024) :
    val_main_v15 (F := Ideal) x0 x1 x2 x3 x4 x5 x6 x7 (ix3 b (0 : Fin 1) o)
      = refRow (fun v => x0 (ix3 b (0 : Fin 1) v)) (fun o v => x2 (ix2 o v)) (fun o => x3 (ix1 o)) (fun o v => x4 (ix2 o v))
          (fun o => x5 (ix1 o)) (fun o v => x6 (ix2 o v)) (fun o => x7 (ix1 o))
          (fun x => Ideal.div x (Ideal.ofBits .f32 0x42800000#32)) (fun s v => x1 (ix3 b s v)) o := by
  rw [val_main_v15_apply]
  unfold refRow
  refine Finset.sum_congr rfl fun s _ => ?_
  have el : lidx_main_v15 (ix3 b (0 : Fin 1) o) s = ix3 b (0 : Fin 1) s := funext fun a => Fin.ext (by match a with | ⟨0, _⟩ => rfl | ⟨1, _⟩ => rfl | ⟨2, _⟩ => rfl)
  have er : ridx_main_v15 (ix3 b (0 : Fin 1) o) s = ix3 b s o := funext fun a => Fin.ext (by match a with | ⟨0, _⟩ => rfl | ⟨1, _⟩ => rfl | ⟨2, _⟩ => rfl)
  rw [el, er, scores_apply, values_apply]

end Cert.ReferenceIdeal.RefValue

end
-- ==== Proof.Algebra.lean ====
/-
  The algebra behind the two result rows of Spec, free of any program text.

  1. The inclusion of the reals in the extended reals is an additive homomorphism and respects products.
  2. Both rows are built from finite sums, sums of two terms, products and zero only, so any additive
     homomorphism that respects products can be moved from the inputs to the result (the reference's division
     is carried by a hypothesis relating the two divisions).
  3. Over the reals the two rows are equal. With Q the query, the reference's score of row s is
       (Σ_d Q d · (Σ_v bert s v · Wk d v + bk d)) / 64
         = ((Σ_v (Σ_d Q d · Wk d v) · bert s v) + Σ_d Q d · bk d) · (1/64),
     by distributing and exchanging the two sums; this is the kernel's score a s. The reference's output is
       Σ_s a s · (Σ_v bert s v · Wv o v + bv o) = Σ_v (Σ_s a s · bert s v) · Wv o v + bv o · Σ_s a s,
     again by distributing and exchanging; and the kernel's two accumulators, started at zero and fed four tiles
     first to last, hold (((0 + t₀) + t₁) + t₂) + t₃ = Σ_j t_j with Σ_j Σ_r f (e (j, r)) = Σ_s f s for the
     bijection e between (tile, row in tile) and row.
  4. The float pattern 0x3C800000 denotes 2^(121-127) = 1/64, the pattern 0x42800000 denotes 2^(133-127) = 64,
     and dividing a real by the latter in the extended reals is the real quotient by 64.
  5. Hence, on real inputs read in the extended reals, the kernel's row with the literal 1/64 equals the
     reference's row with the division by the literal 64: move the inclusion out of both rows (2, with 1 and 4)
     and use the identity over the reals (3).
-/
import proofs.«102422_j45792941310015_2_alg».proof.Proof.Spec
import Mathlib.Data.EReal.Basic
import Mathlib.Data.Fintype.BigOperators
import Mathlib.Algebra.BigOperators.Fin
import Idealize.ShloMosaic.PureOps.Ideal

noncomputable section

namespace Cert.Spec

open Idealize.ShloMosaic

variable {V T S : Type*} [Fintype V] [Fintype T] [Fintype S]

/-! ### 1. The reals inside the extended reals -/

/-- The inclusion of the reals in the extended reals, as an additive homomorphism. -/
def coeHom : ℝ →+ EReal :=
  { toFun := fun x => (x : EReal), map_zero' := EReal.coe_zero, map_add' := EReal.coe_add }

theorem coeHom_apply (x : ℝ) : coeHom x = (x : EReal) := rfl

/-- The inclusion respects products. -/
theorem coeHom_mul (x y : ℝ) : coeHom (x * y) = coeHom x * coeHom y := EReal.coe_mul x y

/-! ### 2. A homomorphism that respects products commutes with both rows -/

section Map

variable {R R' : Type*} [AddCommMonoid R] [Mul R] [AddCommMonoid R'] [Mul R']

/-- Both rows are built from finite sums, sums of two terms, products and zero, so an additive
    homomorphism that also respects products can be moved from the inputs to the result. -/
theorem map_kernelRow (φ : R →+ R') (hmul : ∀ x y, φ (x * y) = φ x * φ y)
    (pool : V → R) (Wq : V → V → R) (bq : V → R) (Wk : V → V → R) (bk : V → R) (Wv : V → V → R) (bv : V → R)
    (c : R) (bert : Fin 4 → T → V → R) :
    kernelRow (fun v => φ (pool v)) (fun o v => φ (Wq o v)) (fun v => φ (bq v)) (fun o v => φ (Wk o v))
        (fun v => φ (bk v)) (fun o v => φ (Wv o v)) (fun v => φ (bv v)) (φ c) (fun j r v => φ (bert j r v))
      = fun o => φ (kernelRow pool Wq bq Wk bk Wv bv c bert o) := by
  funext o
  simp only [kernelRow, outK, abStep, sumStep, att, qk, qbk, q, map_sum, map_add, hmul, map_zero]

theorem map_refRow (φ : R →+ R') (hmul : ∀ x y, φ (x * y) = φ x * φ y)
    (dv : R → R) (dv' : R' → R') (hdv : ∀ x, dv' (φ x) = φ (dv x))
    (pool : V → R) (Wq : V → V → R) (bq : V → R) (Wk : V → V → R) (bk : V → R) (Wv : V → V → R) (bv : V → R)
    (bert : S → V → R) :
    refRow (fun v => φ (pool v)) (fun o v => φ (Wq o v)) (fun v => φ (bq v)) (fun o v => φ (Wk o v))
        (fun v => φ (bk v)) (fun o v => φ (Wv o v)) (fun v => φ (bv v)) dv' (fun s v => φ (bert s v))
      = fun o => φ (refRow pool Wq bq Wk bk Wv bv dv bert o) := by
  funext o
  simp only [refRow, q, map_sum, map_add, hmul, ← hdv]

end Map

/-! ### 4. The two literals and the division -/

/-- The pattern with exponent field 121 and zero fraction denotes 2^(121 - 127) = 1/64. -/
theorem ofBits_inv64 : Ideal.ofBits .f32 0x3C800000#32 = ((1 / 64 : ℝ) : EReal) := by
  simp [Ideal.ofBits, Ideal.ieee, -EReal.coe_mul]; norm_num

/-- The pattern with exponent field 133 and zero fraction denotes 2^(133 - 127) = 64. -/
theorem ofBits_64 : Ideal.ofBits .f32 0x42800000#32 = ((64 : ℝ) : EReal) := by
  simp [Ideal.ofBits, Ideal.ieee, -EReal.coe_mul]; norm_num

/-- Dividing a real by the literal 64 is the real quotient. -/
theorem div64_coe (x : ℝ) :
    Ideal.div (x : EReal) (Ideal.ofBits .f32 0x42800000#32) = ((x / 64 : ℝ) : EReal) := by
  rw [ofBits_64, Ideal.div_coe (by norm_num : (64 : ℝ) ≠ 0), ← EReal.coe_mul, mul_one_div]

/-! ### 3. The identity over the reals -/

section Chain

variable {R : Type*} [AddCommMonoid R] [Mul R]

/-- The kernel's two accumulators, started at zero and fed four tiles first to last, hold the sums over
    the four tiles: (((0 + t₀) + t₁) + t₂) + t₃ = Σ_j t_j. -/
theorem kernelRow_eq_sum (pool : V → R) (Wq : V → V → R) (bq : V → R) (Wk : V → V → R) (bk : V → R)
    (Wv : V → V → R) (bv : V → R) (c : R) (bert : Fin 4 → T → V → R) (o : V) :
    kernelRow pool Wq bq Wk bk Wv bv c bert o
      = (∑ v, (∑ j, ∑ r, att (qk (q pool Wq bq) Wk) (qbk (q pool Wq bq) bk) c (bert j) r * bert j r v) * Wv o v)
        + bv o * ∑ j, ∑ r, att (qk (q pool Wq bq) Wk) (qbk (q pool Wq bq) bk) c (bert j) r := by
  simp only [kernelRow, outK, abStep, sumStep, Fin.sum_univ_four, zero_add]

end Chain

/-- Summing over four tiles of rows and then over a tile's rows is summing over all rows. -/
theorem sum_tiles (e : Fin 4 × T ≃ S) (f : S → ℝ) : ∑ j : Fin 4, ∑ r : T, f (e (j, r)) = ∑ s, f s :=
  (Fintype.sum_prod_type (fun p : Fin 4 × T => f (e p))).symm.trans (Equiv.sum_comp e f)

/-- The reference's score of one row b of bert, (Σ_d Q d · (Σ_v b v · Wk d v + bk d)) / 64, is the kernel's
    ((Σ_v (Σ_d Q d · Wk d v) · b v) + Σ_d Q d · bk d) · (1/64): distribute and exchange the two sums. -/
theorem score_eq (Q : V → ℝ) (Wk : V → V → ℝ) (bk : V → ℝ) (b : V → ℝ) :
    (∑ d, Q d * ((∑ v, b v * Wk d v) + bk d)) / 64
      = ((∑ v, qk Q Wk v * b v) + qbk Q bk) * (1 / 64) := by
  rw [div_eq_mul_one_div]
  congr 1
  simp only [qk, qbk, mul_add, Finset.sum_add_distrib, Finset.mul_sum, Finset.sum_mul]
  congr 1
  rw [Finset.sum_comm]
  exact Finset.sum_congr rfl (fun v _ => Finset.sum_congr rfl (fun d _ => by ring))

/-- The output: Σ_s a s · (Σ_v bert s v · Wv o v + bv o) = Σ_v (Σ_s a s · bert s v) · Wv o v + bv o · Σ_s a s. -/
theorem out_eq (a : S → ℝ) (bert : S → V → ℝ) (w : V → ℝ) (b : ℝ) :
    (∑ v, (∑ s, a s * bert s v) * w v) + b * ∑ s, a s = ∑ s, a s * ((∑ v, bert s v * w v) + b) := by
  simp only [mul_add, Finset.sum_add_distrib, Finset.mul_sum, Finset.sum_mul]
  congr 1
  · rw [Finset.sum_comm]
    exact Finset.sum_congr rfl (fun s _ => Finset.sum_congr rfl (fun v _ => by ring))
  · exact Finset.sum_congr rfl (fun s _ => mul_comm _ _)

/-- Over the reals, with the scale 1/64 on one side and the division by 64 on the other, and bert's rows
    split into four tiles by e, the kernel's row and the reference's row are equal. -/
theorem kernelRow_eq_refRow_real (e : Fin 4 × T ≃ S) (pool : V → ℝ) (Wq : V → V → ℝ) (bq : V → ℝ)
    (Wk : V → V → ℝ) (bk : V → ℝ) (Wv : V → V → ℝ) (bv : V → ℝ) (bert : S → V → ℝ) :
    kernelRow pool Wq bq Wk bk Wv bv (1 / 64 : ℝ) (fun j r v => bert (e (j, r)) v)
      = refRow pool Wq bq Wk bk Wv bv (fun x => x / 64) bert := by
  funext o
  -- the scores of all rows, as the kernel computes them
  have hk : kernelRow pool Wq bq Wk bk Wv bv (1 / 64 : ℝ) (fun j r v => bert (e (j, r)) v) o
      = (∑ v, (∑ s, att (qk (q pool Wq bq) Wk) (qbk (q pool Wq bq) bk) (1 / 64) bert s * bert s v) * Wv o v)
        + bv o * ∑ s, att (qk (q pool Wq bq) Wk) (qbk (q pool Wq bq) bk) (1 / 64) bert s := by
    rw [kernelRow_eq_sum]
    congr 1
    · refine Finset.sum_congr rfl (fun v _ => ?_)
      congr 1
      exact sum_tiles e
        (fun s => att (qk (q pool Wq bq) Wk) (qbk (q pool Wq bq) bk) (1 / 64) bert s * bert s v)
    · congr 1
      exact sum_tiles e (fun s => att (qk (q pool Wq bq) Wk) (qbk (q pool Wq bq) bk) (1 / 64) bert s)
  have hr : refRow pool Wq bq Wk bk Wv bv (fun x => x / 64) bert o
      = ∑ s, att (qk (q pool Wq bq) Wk) (qbk (q pool Wq bq) bk) (1 / 64) bert s
          * ((∑ v, bert s v * Wv o v) + bv o) := by
    unfold refRow
    refine Finset.sum_congr rfl (fun s _ => ?_)
    congr 1
    exact score_eq (q pool Wq bq) Wk bk (bert s)
  rw [hk, hr, out_eq]

/-! ### 5. The identity at the extended reals, on real inputs -/

theorem kernelRow_eq_refRow_coe (e : Fin 4 × T ≃ S) (pool : V → ℝ) (Wq : V → V → ℝ) (bq : V → ℝ)
    (Wk : V → V → ℝ) (bk : V → ℝ) (Wv : V → V → ℝ) (bv : V → ℝ) (bert : S → V → ℝ) :
    kernelRow (fun v => (pool v : EReal)) (fun o v => (Wq o v : EReal)) (fun v => (bq v : EReal))
        (fun o v => (Wk o v : EReal)) (fun v => (bk v : EReal)) (fun o v => (Wv o v : EReal))
        (fun v => (bv v : EReal)) (Ideal.ofBits .f32 0x3C800000#32) (fun j r v => (bert (e (j, r)) v : EReal))
      = refRow (fun v => (pool v : EReal)) (fun o v => (Wq o v : EReal)) (fun v => (bq v : EReal))
        (fun o v => (Wk o v : EReal)) (fun v => (bk v : EReal)) (fun o v => (Wv o v : EReal))
        (fun v => (bv v : EReal)) (fun x => Ideal.div x (Ideal.ofBits .f32 0x42800000#32))
        (fun s v => (bert s v : EReal)) := by
  rw [ofBits_inv64]
  have hk := map_kernelRow coeHom coeHom_mul pool Wq bq Wk bk Wv bv (1 / 64 : ℝ)
    (fun j r v => bert (e (j, r)) v)
  have hr := map_refRow coeHom coeHom_mul (fun x => x / 64)
    (fun x => Ideal.div x (Ideal.ofBits .f32 0x42800000#32)) (fun x => div64_coe x)
    pool Wq bq Wk bk Wv bv bert
  rw [kernelRow_eq_refRow_real e] at hk
  exact hk.trans hr.symm

end Cert.Spec

end
-- ==== Proof.Finite.lean ====
/-
  The finiteness precondition, read back. The precondition is, for each of the eight float arguments x, the bit
  all(|x| < +∞), the eight bits joined by and; the hypothesis says the joined bit is 1.

  A conjunction of bits is 1 only when each bit is 1, so each argument's all(...) is 1. An all(...) is a fold by and
  from the bit 1 over the whole array of comparison bits, and such a fold is 1 only when every comparison bit is 1;
  so |x i| < +∞ at every index i. Over the extended reals a float is ⊥, ⊤ or a real r, |x| is max x (-x), and the
  pattern 0x7F800000 denotes ⊤. At x = ⊤ the maximum is ⊤, and at x = ⊥ it is -⊥ = ⊤; neither is below ⊤. What is
  left is x = r for a real r: every entry of every argument is a real number.

  Nothing here looks at an index type: the statements are for every index, and the index stays a variable.
-/
import proofs.«102422_j45792941310015_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic

/-- The pattern 0x7F800000 of the 32-bit format denotes +∞. -/
theorem inf_eq_top : Ideal.ofBits .f32 0x7F800000#32 = (⊤ : EReal) := by simp [Ideal.ofBits, Ideal.ieee]

/-- One value: if the bit |x| < +∞ is 1 then x is a real. At ⊥ and at ⊤ the absolute value max x (-x) is ⊤, which
    is not below ⊤. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [inf_eq_top] at h
  unfold Ideal.cmp at h
  induction x using EReal.rec with
  | bot => simp at h
  | coe r => exact ⟨r, rfl⟩
  | top => simp at h

/-- One array: if the fold by and of the bits |x i| < c i, with c i the pattern of +∞ at every index, into a result of
    one index is 1, then every entry of x is a real. -/
theorem real_of_all {s t u : Shape} {axes : List (Fin s.rank)} [Subsingleton t.Idx]
    (x c : FVec Ideal s .f32) (hc : ∀ i, c i = FloatOps.ofBits (F := Ideal) .f32 0x7F800000#32)
    (init : IVec u 1) (hr : s.ReducesTo axes t) (hu : 0 < u.numel) (j : t.Idx)
    (e : Host.reduce IntOp.andi (cmpf .olt (Host.absf x) c) init hr hu j = 1#1) (i : s.Idx) :
    ∃ r : ℝ, x i = (r : EReal) := by
  have hi := Host.reduce_andi_all (cmpf .olt (Host.absf x) c) init hr hu j e i
  change FloatOps.cmpf .olt (FloatOps.hostAbsf (x i)) (c i) = 1#1 at hi
  rw [hc i] at hi
  exact real_of_abs_lt_inf (x i) hi

/-- The result shape has no axes, so it has one index. -/
instance : Subsingleton Cert.Pre_finite_inputs.S_.Idx := ⟨fun a b => funext fun d => d.elim0⟩

open Cert.Pre_finite_inputs in
/-- The precondition read back: if the printed predicate is the bit 1, every entry of every argument is a real. -/
theorem real_of_fn [Cert.Pre_finite_inputs.Facts]
    (x0 : FVec Ideal S16x1x1024 .f32) (x1 : FVec Ideal S16x4096x1024 .f32) (x2 : FVec Ideal S1024x1024 .f32) (x3 : FVec Ideal S1024 .f32)
    (x4 : FVec Ideal S1024x1024 .f32) (x5 : FVec Ideal S1024 .f32) (x6 : FVec Ideal S1024x1024 .f32) (x7 : FVec Ideal S1024 .f32)
    (h : Cert.Pre_finite_inputs.fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x5 i = (r : EReal)) ∧ (∀ i, ∃ r : ℝ, x6 i = (r : EReal)) ∧ (∀ i, ∃ r : ℝ, x7 i = (r : EReal)) := by
  have hb := congrFun h ValueIdx.ix0
  dsimp only [fn, fn_part1, fn_part2, andi] at hb
  simp only [IntOp.andi_eq_one] at hb
  obtain ⟨⟨⟨⟨⟨⟨⟨h0, h1⟩, h2⟩, h3⟩, h4⟩, h5⟩, h6⟩, h7⟩ := hb
  exact ⟨real_of_all x0 _ (fun _ => rfl) _ _ _ _ h0, real_of_all x1 _ (fun _ => rfl) _ _ _ _ h1,
    real_of_all x2 _ (fun _ => rfl) _ _ _ _ h2, real_of_all x3 _ (fun _ => rfl) _ _ _ _ h3,
    real_of_all x4 _ (fun _ => rfl) _ _ _ _ h4, real_of_all x5 _ (fun _ => rfl) _ _ _ _ h5,
    real_of_all x6 _ (fun _ => rfl) _ _ _ _ h6, real_of_all x7 _ (fun _ => rfl) _ _ _ _ h7⟩

end Cert.Finite

end
-- ==== Proof.Bridge.lean ====
/-
  On finite inputs the reference's result is the kernel's result function.

  When every entry of every argument is a real number, both result rows of a batch are the inclusion of a real row
  (sums and products of reals are real, and so is a real divided by 64), and over the reals the two rows are equal:
  the reference's scores distribute over the key projection into the kernel's qk and qbk, its output distributes
  over the value projection into the kernel's two accumulators, and the kernel's four tiles of 1024 rows are the
  batch's 4096 rows. Finiteness is what the distributive law needs: it fails at the infinities.
-/
import proofs.«102422_j45792941310015_2_alg».proof.Proof.RefValue
import proofs.«102422_j45792941310015_2_alg».proof.Proof.Result
import proofs.«102422_j45792941310015_2_alg».proof.Proof.Algebra
import proofs.«102422_j45792941310015_2_alg».proof.Proof.Finite

noncomputable section

namespace Cert.Bridge

open Idealize.ShloMosaic Idealize.ShloMosaic.ValueIdx Cert.Spec Cert.Result Cert.Pre_finite_inputs

/-- The reference's result array is the kernel's result function of the same, finite, arguments. -/
theorem result_eq [Cert.Pre_finite_inputs.Facts]
    (x0 : FVec Ideal S16x1x1024 .f32) (x1 : FVec Ideal S16x4096x1024 .f32) (x2 : FVec Ideal S1024x1024 .f32)
    (x3 : FVec Ideal S1024 .f32) (x4 : FVec Ideal S1024x1024 .f32) (x5 : FVec Ideal S1024 .f32)
    (x6 : FVec Ideal S1024x1024 .f32) (x7 : FVec Ideal S1024 .f32)
    (h : Cert.Pre_finite_inputs.fn (F := Ideal) x0 x1 x2 x3 x4 x5 x6 x7 = fun _ => 1#1) :
    Cert.ReferenceIdeal.Read.val_main_v15 (F := Ideal) x0 x1 x2 x3 x4 x5 x6 x7 = kernelG x0 x1 x2 x3 x4 x5 x6 x7 := by
  obtain ⟨r0, r1, r2, r3, r4, r5, r6, r7⟩ := Cert.Finite.real_of_fn x0 x1 x2 x3 x4 x5 x6 x7 h
  choose f0 hf0 using r0
  choose f1 hf1 using r1
  choose f2 hf2 using r2
  choose f3 hf3 using r3
  choose f4 hf4 using r4
  choose f5 hf5 using r5
  choose f6 hf6 using r6
  choose f7 hf7 using r7
  obtain rfl : x0 = fun i => ((f0 i : ℝ) : EReal) := funext hf0
  obtain rfl : x1 = fun i => ((f1 i : ℝ) : EReal) := funext hf1
  obtain rfl : x2 = fun i => ((f2 i : ℝ) : EReal) := funext hf2
  obtain rfl : x3 = fun i => ((f3 i : ℝ) : EReal) := funext hf3
  obtain rfl : x4 = fun i => ((f4 i : ℝ) : EReal) := funext hf4
  obtain rfl : x5 = fun i => ((f5 i : ℝ) : EReal) := funext hf5
  obtain rfl : x6 = fun i => ((f6 i : ℝ) : EReal) := funext hf6
  obtain rfl : x7 = fun i => ((f7 i : ℝ) : EReal) := funext hf7
  funext i
  obtain ⟨b, u, o, rfl⟩ : ∃ (b : Fin 16) (u : Fin 1) (o : Fin 1024), i = ix3 b u o := ⟨i 0, i 1, i 2, eq_ix3 i⟩
  obtain rfl : u = 0 := Subsingleton.elim _ _
  rw [Cert.ReferenceIdeal.RefValue.result_apply, kernelG_apply]
  exact (congrFun (kernelRow_eq_refRow_coe tileEquiv (fun v => f0 (ix3 b (0 : Fin 1) v)) (fun o v => f2 (ix2 o v))
    (fun o => f3 (ix1 o)) (fun o v => f4 (ix2 o v)) (fun o => f5 (ix1 o)) (fun o v => f6 (ix2 o v)) (fun o => f7 (ix1 o))
    (fun s v => f1 (ix3 b s v))) o).symm

end Cert.Bridge

end
-- ==== Proof.lean ====
/-
  The certificate of an unnormalised single-query attention against its plain reference.

  For each of 16 batches: q = pool · Wqᵀ + bq (one row of 1024), k = bert · Wkᵀ + bk and vv = bert · Wvᵀ + bv (4096
  rows each), a = (q · kᵀ) / 64 (64 is the square root of the 4096 rows), and the result is a · vv. The reference
  computes exactly that. The kernel never forms k or vv. Because q is a single row,
      q · k_sᵀ = (q · Wk) · bert_sᵀ + q · bk      and      a · vv = (a · bert) · Wvᵀ + bv · Σ a,
  so it keeps qk = q · Wk and the number qbk = q · bk, walks bert's rows in four tiles of 1024, forms each tile's
  scores (qk · bert_sᵀ + qbk) · (1/64), accumulates a · bert and Σ a over the tiles, and at the last tile stores
  (a · bert) · Wvᵀ + bv · Σ a. Its changes of float format are the identity over the extended reals, and its 1/64
  is the exact dyadic 2⁻⁶.

  The three frames are the generated ones (the reference's is its generated run with the result dropped), and the
  ideal pass rewrote nothing. For the value claim, the kernel's result array after its run is one function of the
  argument arrays (each batch's four grid points chained, the sixteen written-back blocks covering the array), the
  reference's generated run ends at its composed term of the arguments, and on finite arguments the two are equal:
  both rows are the inclusion of a real row, and over the reals the two identities above are the distributive law
  and an exchange of finite sums. Finiteness is needed, and used: the distributive law fails at the infinities.
-/
import proofs.«102422_j45792941310015_2_alg».proof.Defs
import proofs.«102422_j45792941310015_2_alg».proof.Proof.Gen.Kernel
import proofs.«102422_j45792941310015_2_alg».proof.Proof.Gen.Kernel.Skeleton
import proofs.«102422_j45792941310015_2_alg».proof.Proof.Gen.Kernel.Launch
import proofs.«102422_j45792941310015_2_alg».proof.Proof.Gen.Kernel.Points
import proofs.«102422_j45792941310015_2_alg».proof.Proof.Gen.Kernel.Frame
import proofs.«102422_j45792941310015_2_alg».proof.Proof.Gen.KernelIdeal
import proofs.«102422_j45792941310015_2_alg».proof.Proof.Gen.KernelIdeal.Skeleton
import proofs.«102422_j45792941310015_2_alg».proof.Proof.Gen.KernelIdeal.Launch
import proofs.«102422_j45792941310015_2_alg».proof.Proof.Gen.KernelIdeal.Points
import proofs.«102422_j45792941310015_2_alg».proof.Proof.Gen.KernelIdeal.Frame
import proofs.«102422_j45792941310015_2_alg».proof.Proof.Gen.ReferenceIdeal
import proofs.«102422_j45792941310015_2_alg».proof.Proof.Gen.Pre_finite_inputs
import proofs.«102422_j45792941310015_2_alg».proof.Proof.Gen.KernelIdeal.Value
import proofs.«102422_j45792941310015_2_alg».proof.Proof.Gen.ReferenceIdeal.Run
import proofs.«102422_j45792941310015_2_alg».proof.Proof.Gen.ReferenceIdeal.Read
import proofs.«102422_j45792941310015_2_alg».proof.Proof.Final
import proofs.«102422_j45792941310015_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs: its generated run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Over the extended reals, from memories that agree on the finite arguments, both programs end with the kernel's
    result function of the arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Final.G m c, Cert.KernelIdeal.Final.run m ρ, ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v15_eq]
  obtain ⟨a0, a1, a2, a3, a4, a5, a6, a7⟩ := hagree c
  rw [a0, a1, a2, a3, a4, a5, a6, a7]
  exact Cert.Bridge.result_eq _ _ _ _ _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
